-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32x32 : Shape := ⟨3, ![16384, 32, 32]⟩
abbrev S16384x2048 : Shape := ⟨2, ![16384, 2048]⟩
abbrev S16384x12 : Shape := ⟨2, ![16384, 12]⟩
abbrev S1036x1024 : Shape := ⟨2, ![1036, 1024]⟩
abbrev S1024 : Shape := ⟨1, ![1024]⟩
abbrev S1024x2048 : Shape := ⟨2, ![1024, 2048]⟩
abbrev S2048 : Shape := ⟨1, ![2048]⟩
abbrev S2048x16 : Shape := ⟨2, ![2048, 16]⟩
abbrev S16x2048 : Shape := ⟨2, ![16, 2048]⟩
abbrev S4096x2048 : Shape := ⟨2, ![4096, 2048]⟩
abbrev S_ : Shape := ⟨0, ![]⟩

class Facts : Prop where
  bcast_S_S16384x32x32 : S_.BroadcastsInDim S16384x32x32 (![] : Fin 0 → Fin S16384x32x32.rank)
  reducesTo_S16384x32x32_S_d0_1_2 : S16384x32x32.ReducesTo [0, 1, 2] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S16384x12 : S_.BroadcastsInDim S16384x12 (![] : Fin 0 → Fin S16384x12.rank)
  reducesTo_S16384x12_S_d0_1 : S16384x12.ReducesTo [0, 1] S_
  bcast_S_S1036x1024 : S_.BroadcastsInDim S1036x1024 (![] : Fin 0 → Fin S1036x1024.rank)
  reducesTo_S1036x1024_S_d0_1 : S1036x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x16 : S_.BroadcastsInDim S2048x16 (![] : Fin 0 → Fin S2048x16.rank)
  reducesTo_S2048x16_S_d0_1 : S2048x16.ReducesTo [0, 1] S_
  bcast_S_S16x2048 : S_.BroadcastsInDim S16x2048 (![] : Fin 0 → Fin S16x2048.rank)
  reducesTo_S16x2048_S_d0_1 : S16x2048.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part4 {F : FTy → Type} [FloatOps F] (main_arg14 : FVec F S4096x2048 .f32) (main_arg15 : FVec F S2048 .f32) (main_arg16 : FVec F S2048 .f32) (main_v63 : IVec S_ 1) (main_v67 : IVec S_ 1) : IVec S_ 1 :=
  let main_v68 : IVec S_ 1 := andi main_v63 main_v67
  let main_v69 : FVec F S4096x2048 .f32 := Host.absf main_arg14
  let main_cst_26 : FVec F S_ .f32 := constant S_ .f32 0x7F800000#32
  let main_v70 : FVec F S4096x2048 .f32 := broadcastInDim S4096x2048 ![] bcast_S_S4096x2048 main_cst_26
  let main_v71 : IVec S4096x2048 1 := cmpf .olt main_v69 main_v70
  let main_c_27 : IVec S_ 1 := constantI S_ 1 1#1
  let main_v72 : IVec S_ 1 := (fun x v => Host.reduce IntOp.andi x v reducesTo_S4096x2048_S_d0_1 h_S_) main_v71 main_c_27
  let main_v73 : IVec S_ 1 := andi main_v68 main_v72
  let main_v74 : FVec F S2048 .f32 := Host.absf main_arg15
  let main_cst_28 : FVec F S_ .f32 := constant S_ .f32 0x7F800000#32
  let main_v75 : FVec F S2048 .f32 := broadcastInDim S2048 ![] bcast_S_S2048 main_cst_28
  let main_v76 : IVec S2048 1 := cmpf .olt main_v74 main_v75
  let main_c_29 : IVec S_ 1 := constantI S_ 1 1#1
  let main_v77 : IVec S_ 1 := (fun x v => Host.reduce IntOp.andi x v reducesTo_S2048_S_d0 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  main_v83

def fn_part3 {F : FTy → Type} [FloatOps F] (main_arg11 : FVec F S2048 .f32) (main_arg12 : FVec F S4096x2048 .f32) (main_arg13 : FVec F S2048 .f32) (main_arg14 : FVec F S4096x2048 .f32) (main_arg15 : FVec F S2048 .f32) (main_arg16 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S4096x2048 .f32 := Host.absf main_arg12
  let main_cst_22 : FVec F S_ .f32 := constant S_ .f32 0x7F800000#32
  let main_v60 : FVec F S4096x2048 .f32 := broadcastInDim S4096x2048 ![] bcast_S_S4096x2048 main_cst_22
  let main_v61 : IVec S4096x2048 1 := cmpf .olt main_v59 main_v60
  let main_c_23 : IVec S_ 1 := constantI S_ 1 1#1
  let main_v62 : IVec S_ 1 := (fun x v => Host.reduce IntOp.andi x v reducesTo_S4096x2048_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_arg16 main_v63 main_v67

def fn_part2 {F : FTy → Type} [FloatOps F] (main_arg7 : FVec F S2048 .f32) (main_arg8 : FVec F S2048x16 .f32) (main_arg9 : FVec F S16x2048 .f32) (main_arg10 : FVec F S2048 .f32) (main_arg11 : FVec F S2048 .f32) (main_arg12 : FVec F S4096x2048 .f32) (main_arg13 : FVec F S2048 .f32) (main_arg14 : FVec F S4096x2048 .f32) (main_arg15 : FVec F S2048 .f32) (main_arg16 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x16 .f32 := Host.absf main_arg8
  let main_cst_14 : FVec F S_ .f32 := constant S_ .f32 0x7F800000#32
  let main_v40 : FVec F S2048x16 .f32 := broadcastInDim S2048x16 ![] bcast_S_S2048x16 main_cst_14
  let main_v41 : IVec S2048x16 1 := cmpf .olt main_v39 main_v40
  let main_c_15 : IVec S_ 1 := constantI S_ 1 1#1
  let main_v42 : IVec S_ 1 := (fun x v => Host.reduce IntOp.andi x v reducesTo_S2048x16_S_d0_1 h_S_) main_v41 main_c_15
  let main_v43 : IVec S_ 1 := andi main_v38 main_v42
  let main_v44 : FVec F S16x2048 .f32 := Host.absf main_arg9
  let main_cst_16 : FVec F S_ .f32 := constant S_ .f32 0x7F800000#32
  let main_v45 : FVec F S16x2048 .f32 := broadcastInDim S16x2048 ![] bcast_S_S16x2048 main_cst_16
  let main_v46 : IVec S16x2048 1 := cmpf .olt main_v44 main_v45
  let main_c_17 : IVec S_ 1 := constantI S_ 1 1#1
  let main_v47 : IVec S_ 1 := (fun x v => Host.reduce IntOp.andi x v reducesTo_S16x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_v48 main_v49 main_v50

def fn_part1 {F : FTy → Type} [FloatOps F] (main_arg4 : FVec F S1024 .f32) (main_arg5 : FVec F S1024 .f32) (main_arg6 : FVec F S1024x2048 .f32) (main_arg7 : FVec F S2048 .f32) (main_arg8 : FVec F S2048x16 .f32) (main_arg9 : FVec F S16x2048 .f32) (main_arg10 : FVec F S2048 .f32) (main_arg11 : FVec F S2048 .f32) (main_arg12 : FVec F S4096x2048 .f32) (main_arg13 : FVec F S2048 .f32) (main_arg14 : FVec F S4096x2048 .f32) (main_arg15 : FVec F S2048 .f32) (main_arg16 : FVec F S2048 .f32) (main_v13 : IVec S_ 1) (main_v16 : IVec S1036x1024 1) : IVec S_ 1 :=
  let main_c_5 : IVec S_ 1 := constantI S_ 1 1#1
  let main_v17 : IVec S_ 1 := (fun x v => Host.reduce IntOp.andi x v reducesTo_S1036x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S16384x32x32 .f32) (main_arg1 : FVec F S16384x2048 .f32) (main_arg2 : FVec F S16384x12 .f32) (main_arg3 : FVec F S1036x1024 .f32) (main_arg4 : FVec F S1024 .f32) (main_arg5 : FVec F S1024 .f32) (main_arg6 : FVec F S1024x2048 .f32) (main_arg7 : FVec F S2048 .f32) (main_arg8 : FVec F S2048x16 .f32) (main_arg9 : FVec F S16x2048 .f32) (main_arg10 : FVec F S2048 .f32) (main_arg11 : FVec F S2048 .f32) (main_arg12 : FVec F S4096x2048 .f32) (main_arg13 : FVec F S2048 .f32) (main_arg14 : FVec F S4096x2048 .f32) (main_arg15 : FVec F S2048 .f32) (main_arg16 : FVec F S2048 .f32) : IVec S_ 1 :=
  let main_v0 : FVec F S16384x32x32 .f32 := Host.absf main_arg0
  let main_cst : FVec F S_ .f32 := constant S_ .f32 0x7F800000#32
  let main_v1 : FVec F S16384x32x32 .f32 := broadcastInDim S16384x32x32 ![] bcast_S_S16384x32x32 main_cst
  let main_v2 : IVec S16384x32x32 1 := cmpf .olt main_v0 main_v1
  let main_c : IVec S_ 1 := constantI S_ 1 1#1
  let main_v3 : IVec S_ 1 := (fun x v => Host.reduce IntOp.andi x v reducesTo_S16384x32x32_S_d0_1_2 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384x12 .f32 := Host.absf main_arg2
  let main_cst_2 : FVec F S_ .f32 := constant S_ .f32 0x7F800000#32
  let main_v10 : FVec F S16384x12 .f32 := broadcastInDim S16384x12 ![] bcast_S_S16384x12 main_cst_2
  let main_v11 : IVec S16384x12 1 := cmpf .olt main_v9 main_v10
  let main_c_3 : IVec S_ 1 := constantI S_ 1 1#1
  let main_v12 : IVec S_ 1 := (fun x v => Host.reduce IntOp.andi x v reducesTo_S16384x12_S_d0_1 h_S_) main_v11 main_c_3
  let main_v13 : IVec S_ 1 := andi main_v8 main_v12
  let main_v14 : FVec F S1036x1024 .f32 := Host.absf main_arg3
  let main_cst_4 : FVec F S_ .f32 := constant S_ .f32 0x7F800000#32
  let main_v15 : FVec F S1036x1024 .f32 := broadcastInDim S1036x1024 ![] bcast_S_S1036x1024 main_cst_4
  let main_v16 : IVec S1036x1024 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S16384x32x32 : Shape := ⟨3, ![16384, 32, 32]⟩
abbrev S16384x2048 : Shape := ⟨2, ![16384, 2048]⟩
abbrev S16384x12 : Shape := ⟨2, ![16384, 12]⟩
abbrev S1036x1024 : Shape := ⟨2, ![1036, 1024]⟩
abbrev S1024 : Shape := ⟨1, ![1024]⟩
abbrev S1024x2048 : Shape := ⟨2, ![1024, 2048]⟩
abbrev S2048 : Shape := ⟨1, ![2048]⟩
abbrev S2048x16 : Shape := ⟨2, ![2048, 16]⟩
abbrev S16x2048 : Shape := ⟨2, ![16, 2048]⟩
abbrev S4096x2048 : Shape := ⟨2, ![4096, 2048]⟩
abbrev S16384x1024 : Shape := ⟨2, ![16384, 1024]⟩
abbrev S1024x1024 : Shape := ⟨2, ![1024, 1024]⟩
abbrev S12x1024 : Shape := ⟨2, ![12, 1024]⟩
abbrev S2048x2048 : Shape := ⟨2, ![2048, 2048]⟩
abbrev S2048x4096 : Shape := ⟨2, ![2048, 4096]⟩
abbrev S4096 : Shape := ⟨1, ![4096]⟩
abbrev S_ : Shape := ⟨0, ![]⟩
abbrev S256x1024 : Shape := ⟨2, ![256, 1024]⟩
abbrev S256x2048 : Shape := ⟨2, ![256, 2048]⟩
abbrev S256x12 : Shape := ⟨2, ![256, 12]⟩
abbrev S1x1024 : Shape := ⟨2, ![1, 1024]⟩
abbrev S256 : Shape := ⟨1, ![256]⟩
abbrev S256x1 : Shape := ⟨2, ![256, 1]⟩
abbrev S1x2048 : Shape := ⟨2, ![1, 2048]⟩
abbrev S256x16 : Shape := ⟨2, ![256, 16]⟩
abbrev S128x2048 : Shape := ⟨2, ![128, 2048]⟩
abbrev S128x4096 : Shape := ⟨2, ![128, 4096]⟩
abbrev S1x4096 : Shape := ⟨2, ![1, 4096]⟩
abbrev S128 : Shape := ⟨1, ![128]⟩
abbrev S128x1 : Shape := ⟨2, ![128, 1]⟩

abbrev nBuf : Space → Nat
  | .hbm => 69
  | .vmem => 32
  | .smem => 0
  | _ => 0

abbrev bufTy : (tb : Table) → Fin (tcTables nBuf tb) → BufTy
  | .hbm, ⟨0, _⟩ => ⟨S16384x32x32, .f32⟩
  | .hbm, ⟨1, _⟩ => ⟨S16384x2048, .f32⟩
  | .hbm, ⟨2, _⟩ => ⟨S16384x12, .f32⟩
  | .hbm, ⟨3, _⟩ => ⟨S1036x1024, .f32⟩
  | .hbm, ⟨4, _⟩ => ⟨S1024, .f32⟩
  | .hbm, ⟨5, _⟩ => ⟨S1024, .f32⟩
  | .hbm, ⟨6, _⟩ => ⟨S1024x2048, .f32⟩
  | .hbm, ⟨7, _⟩ => ⟨S2048, .f32⟩
  | .hbm, ⟨8, _⟩ => ⟨S2048x16, .f32⟩
  | .hbm, ⟨9, _⟩ => ⟨S16x2048, .f32⟩
  | .hbm, ⟨10, _⟩ => ⟨S2048, .f32⟩
  | .hbm, ⟨11, _⟩ => ⟨S2048, .f32⟩
  | .hbm, ⟨12, _⟩ => ⟨S4096x2048, .f32⟩
  | .hbm, ⟨13, _⟩ => ⟨S2048, .f32⟩
  | .hbm, ⟨14, _⟩ => ⟨S4096x2048, .f32⟩
  | .hbm, ⟨15, _⟩ => ⟨S2048, .f32⟩
  | .hbm, ⟨16, _⟩ => ⟨S2048, .f32⟩
  | .hbm, ⟨17, _⟩ => ⟨S16384x1024, .f32⟩
  | .hbm, ⟨18, _⟩ => ⟨S1024x1024, .f32⟩
  | .hbm, ⟨19, _⟩ => ⟨S12x1024, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x4096, .f32⟩
  | .hbm, ⟨25, _⟩ => ⟨S2048x4096, .f32⟩
  | .hbm, ⟨26, _⟩ => ⟨S4096, .f32⟩
  | .hbm, ⟨27, _⟩ => ⟨S1024x1024, .bf16⟩
  | .hbm, ⟨28, _⟩ => ⟨S12x1024, .bf16⟩
  | .hbm, ⟨29, _⟩ => ⟨S1024x2048, .bf16⟩
  | .hbm, ⟨30, _⟩ => ⟨S2048x4096, .bf16⟩
  | .hbm, ⟨31, _⟩ => ⟨S2048x4096, .bf16⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S2048, .f32⟩
  | .hbm, ⟨36, _⟩ => ⟨S2048, .f32⟩
  | .hbm, ⟨37, _⟩ => ⟨S2048, .i1⟩
  | .hbm, ⟨38, _⟩ => ⟨S2048, .f32⟩
  | .hbm, ⟨39, _⟩ => ⟨S2048, .f32⟩
  | .hbm, ⟨40, _⟩ => ⟨S2048, .f32⟩
  | .hbm, ⟨41, _⟩ => ⟨S2048, .f32⟩
  | .hbm, ⟨42, _⟩ => ⟨S2048, .f32⟩
  | .hbm, ⟨43, _⟩ => ⟨S2048, .f32⟩
  | .hbm, ⟨44, _⟩ => ⟨S2048, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S2048, .f32⟩
  | .hbm, ⟨53, _⟩ => ⟨S2048, .f32⟩
  | .hbm, ⟨54, _⟩ => ⟨S2048, .i1⟩
  | .hbm, ⟨55, _⟩ => ⟨S2048, .f32⟩
  | .hbm, ⟨56, _⟩ => ⟨S2048, .f32⟩
  | .hbm, ⟨57, _⟩ => ⟨S2048, .f32⟩
  | .hbm, ⟨58, _⟩ => ⟨S2048, .f32⟩
  | .hbm, ⟨59, _⟩ => ⟨S2048, .f32⟩
  | .hbm, ⟨60, _⟩ => ⟨S2048, .f32⟩
  | .hbm, ⟨61, _⟩ => ⟨S2048, .f32⟩
  | .hbm, ⟨62, _⟩ => ⟨S2048, .f32⟩
  | .hbm, ⟨63, _⟩ => ⟨S2048, .f32⟩
  | .hbm, ⟨64, _⟩ => ⟨S2048, .f32⟩
  | .hbm, ⟨65, _⟩ => ⟨S2048, .f32⟩
  | .hbm, ⟨66, _⟩ => ⟨S16384x2048, .bf16⟩
  | .hbm, ⟨67, _⟩ => ⟨S16384x2048, .bf16⟩
  | .hbm, ⟨68, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x12, .f32⟩
  | .local _ .vmem, ⟨5, _⟩ => ⟨S256x12, .f32⟩
  | .local _ .vmem, ⟨6, _⟩ => ⟨S1024x1024, .bf16⟩
  | .local _ .vmem, ⟨7, _⟩ => ⟨S12x1024, .bf16⟩
  | .local _ .vmem, ⟨8, _⟩ => ⟨S1024, .f32⟩
  | .local _ .vmem, ⟨9, _⟩ => ⟨S1024, .f32⟩
  | .local _ .vmem, ⟨10, _⟩ => ⟨S1024x2048, .bf16⟩
  | .local _ .vmem, ⟨11, _⟩ => ⟨S2048, .f32⟩
  | .local _ .vmem, ⟨12, _⟩ => ⟨S2048x16, .f32⟩
  | .local _ .vmem, ⟨13, _⟩ => ⟨S16x2048, .f32⟩
  | .local _ .vmem, ⟨14, _⟩ => ⟨S2048, .f32⟩
  | .local _ .vmem, ⟨15, _⟩ => ⟨S2048, .f32⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S128x2048, .bf16⟩
  | .local _ .vmem, ⟨21, _⟩ => ⟨S128x2048, .bf16⟩
  | .local _ .vmem, ⟨22, _⟩ => ⟨S128x2048, .bf16⟩
  | .local _ .vmem, ⟨23, _⟩ => ⟨S128x2048, .bf16⟩
  | .local _ .vmem, ⟨24, _⟩ => ⟨S128x2048, .f32⟩
  | .local _ .vmem, ⟨25, _⟩ => ⟨S128x2048, .f32⟩
  | .local _ .vmem, ⟨26, _⟩ => ⟨S2048x4096, .bf16⟩
  | .local _ .vmem, ⟨27, _⟩ => ⟨S2048x4096, .bf16⟩
  | .local _ .vmem, ⟨28, _⟩ => ⟨S4096, .f32⟩
  | .local _ .vmem, ⟨29, _⟩ => ⟨S2048, .f32⟩
  | .local _ .vmem, ⟨30, _⟩ => ⟨S128x2048, .f32⟩
  | .local _ .vmem, ⟨31, _⟩ => ⟨S128x2048, .f32⟩
  | _, _ => ⟨S16384x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_v15 : Ref sig .tc := ⟨.hbm, 45, rfl⟩
abbrev main_cst : Ref sig .tc := ⟨.hbm, 46, rfl⟩
abbrev main_v16 : Ref sig .tc := ⟨.hbm, 47, rfl⟩
abbrev main_v17 : Ref sig .tc := ⟨.hbm, 48, rfl⟩
abbrev main_call1_cst : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22_0 : Ref sig .tc := ⟨.hbm, 66, rfl⟩
abbrev main_v22_1 : Ref sig .tc := ⟨.hbm, 67, rfl⟩
abbrev main_v23 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x12 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2048x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S16384x32x32_S16384x1024 : S16384x32x32.ShapeCasts S16384x1024
  slices_S1036x1024_S1024x1024_0_0 : S1036x1024.Slices ![0, 0] S1024x1024
  slices_S1036x1024_S12x1024_1024_0 : S1036x1024.Slices ![1024, 0] S12x1024
  slices_S4096x2048_S2048x2048_0_0 : S4096x2048.Slices ![0, 0] S2048x2048
  slices_S4096x2048_S2048x2048_2048_0 : S4096x2048.Slices ![2048, 0] S2048x2048
  concatenates_S2048x2048_S2048x2048_S2048x4096_d1 : Shape.Concatenates [S2048x2048, S2048x2048] S2048x4096 1
  concatenates_S2048_S2048_S4096_d0 : Shape.Concatenates [S2048, S2048] S4096 0
  bitsLt_bf16_f32 : FTy.bits .bf16 < FTy.bits .f32
  bcast_S_S2048 : S_.BroadcastsInDim S2048 (![] : Fin 0 → Fin S2048.rank)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x2048_S256x2048_0_0 : ∀ a, (![0, 0] : Fin 2 → Nat) a + S256x2048.size a ≤ S256x2048.size a
  h_S256x2048 : 0 < S256x2048.numel
  inb_S256x12_S256x12_0_0 : ∀ a, (![0, 0] : Fin 2 → Nat) a + S256x12.size a ≤ S256x12.size a
  h_S256x12 : 0 < S256x12.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S12x1024_S12x1024_0_0 : ∀ a, (![0, 0] : Fin 2 → Nat) a + S12x1024.size a ≤ S12x1024.size a
  h_S12x1024 : 0 < S12x1024.numel
  shapeCasts_S12x1024_S12x1024 : S12x1024.ShapeCasts S12x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S256x2048 : S1x2048.Broadcasts S256x2048
  inb_S2048x16_S2048x16_0_0 : ∀ a, (![0, 0] : Fin 2 → Nat) a + S2048x16.size a ≤ S2048x16.size a
  h_S2048x16 : 0 < S2048x16.numel
  inb_S16x2048_S16x2048_0_0 : ∀ a, (![0, 0] : Fin 2 → Nat) a + S16x2048.size a ≤ S16x2048.size a
  h_S16x2048 : 0 < S16x2048.numel
  shapeCasts_S2048_S2048 : S2048.ShapeCasts S2048
  packedbf16_S256x2048_S256x2048_0_0 : (Rect.unit (s := S256x2048) ![0, 0] S256x2048.size inb_S256x2048_S256x2048_0_0).PackedRows (EltTy.packing .bf16)
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S128x4096 : S1x4096.Broadcasts S128x4096
  slices_S128x4096_o0_0_S128x2048 : S128x4096.Slices ![0, 0] S128x2048
  slices_S128x4096_o0_2048_S128x2048 : S128x4096.Slices ![0, 2048] S128x2048
  reduces_S128x2048_S128 : S128x2048.Reduces [1] S128
  shapeCasts_S128_S128x1 : S128.ShapeCasts S128x1
  broadcasts_S128x1_S128x2048 : S128x1.Broadcasts S128x2048
  broadcasts_S1x2048_S128x2048 : S1x2048.Broadcasts S128x2048
  dot_S256x1024_S1024x1024_S256x1024_1_0_0_1_n_n_wf : DotDims.WF S256x1024 S1024x1024 S256x1024 [1] [0] [0] [1] [] []
  dot_S256x12_S12x1024_S256x1024_1_0_0_1_n_n_wf : DotDims.WF S256x12 S12x1024 S256x1024 [1] [0] [0] [1] [] []
  dot_S256x1024_S1024x2048_S256x2048_1_0_0_1_n_n_wf : DotDims.WF S256x1024 S1024x2048 S256x2048 [1] [0] [0] [1] [] []
  dot_S256x2048_S2048x16_S256x16_1_0_0_1_n_n_wf : DotDims.WF S256x2048 S2048x16 S256x16 [1] [0] [0] [1] [] []
  dot_S256x16_S16x2048_S256x2048_1_0_0_1_n_n_wf : DotDims.WF S256x16 S16x2048 S256x2048 [1] [0] [0] [1] [] []
  dot_S128x2048_S2048x4096_S128x4096_1_0_0_1_n_n_wf : DotDims.WF S128x2048 S2048x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S16384x2048.size a
  hwx0_1 : ∀ i : grid0.Coords, EltTy.bits .f32 = 32 ∨ (Rect.block (s := S16384x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x12.size a ≤ S16384x12.size a
  hwx0_2 : ∀ i : grid0.Coords, EltTy.bits .f32 = 32 ∨ (Rect.block (s := S16384x12) S256x12.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x1024.size a ≤ S12x1024.size a
  hwx0_4 : ∀ i : grid0.Coords, EltTy.bits .bf16 = 32 ∨ (Rect.block (s := S12x1024) S12x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x2048.size a ≤ S1024x2048.size a
  hwx0_7 : ∀ i : grid0.Coords, EltTy.bits .bf16 = 32 ∨ (Rect.block (s := S1024x2048) S1024x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048.size a ≤ S2048.size a
  hwx0_8 : ∀ i : grid0.Coords, EltTy.bits .f32 = 32 ∨ (Rect.block (s := S2048) S2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x16.size a ≤ S2048x16.size a
  hwx0_9 : ∀ i : grid0.Coords, EltTy.bits .f32 = 32 ∨ (Rect.block (s := S2048x16) S2048x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x2048.size a ≤ S16x2048.size a
  hwx0_10 : ∀ i : grid0.Coords, EltTy.bits .f32 = 32 ∨ (Rect.block (s := S16x2048) S16x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048.size a ≤ S2048.size a
  hwx0_11 : ∀ i : grid0.Coords, EltTy.bits .f32 = 32 ∨ (Rect.block (s := S2048) S2048.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2048.size a ≤ S2048.size a
  hwx0_12 : ∀ i : grid0.Coords, EltTy.bits .f32 = 32 ∨ (Rect.block (s := S2048) S2048.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x2048.size a ≤ S16384x2048.size a
  hwx0_13 : ∀ i : grid0.Coords, EltTy.bits .bf16 = 32 ∨ (Rect.block (s := S16384x2048) S256x2048.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x2048.size a ≤ S16384x2048.size a
  hwx0_14 : ∀ i : grid0.Coords, EltTy.bits .bf16 = 32 ∨ (Rect.block (s := S16384x2048) S256x2048.size (cc0_transform_14 i) (hinb0_14 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2048.size a ≤ S16384x2048.size a
  hwx1_0 : ∀ i : grid1.Coords, EltTy.bits .bf16 = 32 ∨ (Rect.block (s := S16384x2048) S128x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S16384x2048.size a
  hwx1_1 : ∀ i : grid1.Coords, EltTy.bits .bf16 = 32 ∨ (Rect.block (s := S16384x2048) S128x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x2048.size a ≤ S16384x2048.size a
  hwx1_2 : ∀ i : grid1.Coords, EltTy.bits .f32 = 32 ∨ (Rect.block (s := S16384x2048) S128x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x4096.size a ≤ S2048x4096.size a
  hwx1_3 : ∀ i : grid1.Coords, EltTy.bits .bf16 = 32 ∨ (Rect.block (s := S2048x4096) S2048x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x4096.size a ≤ S2048x4096.size a
  hwx1_4 : ∀ i : grid1.Coords, EltTy.bits .bf16 = 32 ∨ (Rect.block (s := S2048x4096) S2048x4096.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096.size a ≤ S4096.size a
  hwx1_5 : ∀ i : grid1.Coords, EltTy.bits .f32 = 32 ∨ (Rect.block (s := S4096) S4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2048.size a ≤ S2048.size a
  hwx1_6 : ∀ i : grid1.Coords, EltTy.bits .f32 = 32 ∨ (Rect.block (s := S2048) S2048.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x2048.size a ≤ S16384x2048.size a
  hwx1_7 : ∀ i : grid1.Coords, EltTy.bits .f32 = 32 ∨ (Rect.block (s := S16384x2048) S128x2048.size (cc1_transform_7 i) (hinb1_7 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x12_S12x1024_S256x1024_1_0_0_1_n_n : DotDims S256x12 S12x1024 S256x1024 where
  lhsContracting := [1]
  rhsContracting := [0]
  lhsNonContracting := [0]
  rhsNonContracting := [1]
  lhsBatch := []
  rhsBatch := []
  wf := dot_S256x12_S12x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x16_S256x16_1_0_0_1_n_n : DotDims S256x2048 S2048x16 S256x16 where
  lhsContracting := [1]
  rhsContracting := [0]
  lhsNonContracting := [0]
  rhsNonContracting := [1]
  lhsBatch := []
  rhsBatch := []
  wf := dot_S256x2048_S2048x16_S256x16_1_0_0_1_n_n_wf
def dot_S256x16_S16x2048_S256x2048_1_0_0_1_n_n : DotDims S256x16 S16x2048 S256x2048 where
  lhsContracting := [1]
  rhsContracting := [0]
  lhsNonContracting := [0]
  rhsNonContracting := [1]
  lhsBatch := []
  rhsBatch := []
  wf := dot_S256x16_S16x2048_S256x2048_1_0_0_1_n_n_wf
def dot_S128x2048_S2048x4096_S128x4096_1_0_0_1_n_n : DotDims S128x2048 S2048x4096 S128x4096 where
  lhsContracting := [1]
  rhsContracting := [0]
  lhsNonContracting := [0]
  rhsNonContracting := [1]
  lhsBatch := []
  rhsBatch := []
  wf := dot_S128x2048_S2048x4096_S128x4096_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x12.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S12x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1024x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S2048x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S16x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v21) S2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v22_0) S256x2048.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v22_1) S256x2048.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v22_0) S128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22_1) S128x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S2048x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S2048x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S128x2048.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S16384x32x32 : Shape := ⟨3, ![16384, 32, 32]⟩
abbrev S16384x2048 : Shape := ⟨2, ![16384, 2048]⟩
abbrev S16384x12 : Shape := ⟨2, ![16384, 12]⟩
abbrev S1036x1024 : Shape := ⟨2, ![1036, 1024]⟩
abbrev S1024 : Shape := ⟨1, ![1024]⟩
abbrev S1024x2048 : Shape := ⟨2, ![1024, 2048]⟩
abbrev S2048 : Shape := ⟨1, ![2048]⟩
abbrev S2048x16 : Shape := ⟨2, ![2048, 16]⟩
abbrev S16x2048 : Shape := ⟨2, ![16, 2048]⟩
abbrev S4096x2048 : Shape := ⟨2, ![4096, 2048]⟩
abbrev S16384x1024 : Shape := ⟨2, ![16384, 1024]⟩
abbrev S_ : Shape := ⟨0, ![]⟩
abbrev S16384x1036 : Shape := ⟨2, ![16384, 1036]⟩
abbrev S1x1024 : Shape := ⟨2, ![1, 1024]⟩
abbrev S16384 : Shape := ⟨1, ![16384]⟩
abbrev S16384x1 : Shape := ⟨2, ![16384, 1]⟩
abbrev S1x2048 : Shape := ⟨2, ![1, 2048]⟩
abbrev S16384x16 : Shape := ⟨2, ![16384, 16]⟩
abbrev S16384x4096 : Shape := ⟨2, ![16384, 4096]⟩

abbrev nBuf : Space → Nat
  | .hbm => 141
  | .vmem => 0
  | .smem => 0
  | _ => 0

abbrev hbmTy0_0 (i : Nat) : BufTy := match i % 128 with
  | 0 => ⟨S16384x32x32, .f32⟩
  | 1 => ⟨S16384x2048, .f32⟩
  | 2 => ⟨S16384x12, .f32⟩
  | 3 => ⟨S1036x1024, .f32⟩
  | 4 => ⟨S1024, .f32⟩
  | 5 => ⟨S1024, .f32⟩
  | 6 => ⟨S1024x2048, .f32⟩
  | 7 => ⟨S2048, .f32⟩
  | 8 => ⟨S2048x16, .f32⟩
  | 9 => ⟨S16x2048, .f32⟩
  | 10 => ⟨S2048, .f32⟩
  | 11 => ⟨S2048, .f32⟩
  | 12 => ⟨S4096x2048, .f32⟩
  | 13 => ⟨S2048, .f32⟩
  | 14 => ⟨S4096x2048, .f32⟩
  | 15 => ⟨S2048, .f32⟩
  | 16 => ⟨S2048, .f32⟩
  | 17 => ⟨S16384x1024, .f32⟩
  | 18 => ⟨S16384x12, .f32⟩
  | 19 => ⟨S_, .f32⟩
  | 20 => ⟨S16384x12, .f32⟩
  | 21 => ⟨S16384x12, .f32⟩
  | 22 => ⟨S16384x12, .f32⟩
  | 23 => ⟨S16384x1036, .f32⟩
  | 24 => ⟨S16384x1024, .f32⟩
  | 25 => ⟨S1x1024, .f32⟩
  | 26 => ⟨S16384x1024, .f32⟩
  | 27 => ⟨S16384x1024, .f32⟩
  | 28 => ⟨S16384x1024, .f32⟩
  | 29 => ⟨S_, .f32⟩
  | 30 => ⟨S16384, .f32⟩
  | 31 => ⟨S16384x1, .f32⟩
  | 32 => ⟨S_, .f32⟩
  | 33 => ⟨S16384x1, .f32⟩
  | 34 => ⟨S16384x1, .f32⟩
  | 35 => ⟨S_, .f32⟩
  | 36 => ⟨S16384x1, .f32⟩
  | 37 => ⟨S16384x1, .f32⟩
  | 38 => ⟨S16384x1, .f32⟩
  | 39 => ⟨S16384x1024, .f32⟩
  | 40 => ⟨S16384x1024, .f32⟩
  | 41 => ⟨S1x1024, .f32⟩
  | 42 => ⟨S16384x1024, .f32⟩
  | 43 => ⟨S16384x1024, .f32⟩
  | 44 => ⟨S16384x1024, .f32⟩
  | 45 => ⟨S16384x1024, .f32⟩
  | 46 => ⟨S_, .f32⟩
  | 47 => ⟨S16384x1024, .f32⟩
  | 48 => ⟨S16384x1024, .f32⟩
  | 49 => ⟨S_, .f32⟩
  | 50 => ⟨S16384x1024, .f32⟩
  | 51 => ⟨S16384x1024, .f32⟩
  | 52 => ⟨S16384x1024, .f32⟩
  | 53 => ⟨S16384x2048, .f32⟩
  | 54 => ⟨S1x2048, .f32⟩
  | 55 => ⟨S16384x2048, .f32⟩
  | 56 => ⟨S16384x2048, .f32⟩
  | 57 => ⟨S16384x16, .f32⟩
  | 58 => ⟨S16384x2048, .f32⟩
  | 59 => ⟨S16384x2048, .f32⟩
  | 60 => ⟨S_, .f32⟩
  | 61 => ⟨S2048, .f32⟩
  | 62 => ⟨S2048, .f32⟩
  | 63 => ⟨S2048, .f32⟩
  | 64 => ⟨S2048, .f32⟩
  | 65 => ⟨S2048, .i1⟩
  | 66 => ⟨S2048, .f32⟩
  | 67 => ⟨S2048, .f32⟩
  | 68 => ⟨S2048, .f32⟩
  | 69 => ⟨S2048, .f32⟩
  | 70 => ⟨S2048, .f32⟩
  | 71 => ⟨S2048, .f32⟩
  | 72 => ⟨S2048, .f32⟩
  | 73 => ⟨S2048, .f32⟩
  | 74 => ⟨S1x2048, .f32⟩
  | 75 => ⟨S_, .f32⟩
  | 76 => ⟨S1x2048, .f32⟩
  | 77 => ⟨S1x2048, .f32⟩
  | 78 => ⟨S_, .f32⟩
  | 79 => ⟨S2048, .f32⟩
  | 80 => ⟨S2048, .f32⟩
  | 81 => ⟨S2048, .f32⟩
  | 82 => ⟨S2048, .f32⟩
  | 83 => ⟨S2048, .i1⟩
  | 84 => ⟨S2048, .f32⟩
  | 85 => ⟨S2048, .f32⟩
  | 86 => ⟨S2048, .f32⟩
  | 87 => ⟨S2048, .f32⟩
  | 88 => ⟨S2048, .f32⟩
  | 89 => ⟨S2048, .f32⟩
  | 90 => ⟨S2048, .f32⟩
  | 91 => ⟨S2048, .f32⟩
  | 92 => ⟨S1x2048, .f32⟩
  | 93 => ⟨S1x2048, .f32⟩
  | 94 => ⟨S1x2048, .f32⟩
  | 95 => ⟨S1x2048, .f32⟩
  | 96 => ⟨S16384x2048, .f32⟩
  | 97 => ⟨S16384x2048, .f32⟩
  | 98 => ⟨S16384x2048, .f32⟩
  | 99 => ⟨S16384x2048, .f32⟩
  | 100 => ⟨S16384x2048, .f32⟩
  | 101 => ⟨S16384x4096, .f32⟩
  | 102 => ⟨S16384x2048, .f32⟩
  | 103 => ⟨S1x2048, .f32⟩
  | 104 => ⟨S16384x2048, .f32⟩
  | 105 => ⟨S16384x2048, .f32⟩
  | 106 => ⟨S16384x2048, .f32⟩
  | 107 => ⟨S16384x2048, .f32⟩
  | 108 => ⟨S_, .f32⟩
  | 109 => ⟨S16384x2048, .f32⟩
  | 110 => ⟨S16384x2048, .f32⟩
  | 111 => ⟨S_, .f32⟩
  | 112 => ⟨S16384x2048, .f32⟩
  | 113 => ⟨S16384x2048, .f32⟩
  | 114 => ⟨S16384x2048, .f32⟩
  | 115 => ⟨S1x2048, .f32⟩
  | 116 => ⟨S16384x2048, .f32⟩
  | 117 => ⟨S16384x2048, .f32⟩
  | 118 => ⟨S16384x2048, .f32⟩
  | 119 => ⟨S16384x2048, .f32⟩
  | 120 => ⟨S_, .f32⟩
  | 121 => ⟨S16384x2048, .f32⟩
  | 122 => ⟨S16384x2048, .f32⟩
  | 123 => ⟨S16384x2048, .f32⟩
  | 124 => ⟨S16384x2048, .f32⟩
  | 125 => ⟨S16384x2048, .f32⟩
  | 126 => ⟨S_, .f32⟩
  | 127 => ⟨S16384, .f32⟩
  | _ => ⟨S16384x32x32, .f32⟩

abbrev hbmTy0_1 (i : Nat) : BufTy := match i % 128 with
  | 0 => ⟨S16384x1, .f32⟩
  | 1 => ⟨S_, .f32⟩
  | 2 => ⟨S16384x1, .f32⟩
  | 3 => ⟨S16384x1, .f32⟩
  | 4 => ⟨S_, .f32⟩
  | 5 => ⟨S16384x1, .f32⟩
  | 6 => ⟨S16384x1, .f32⟩
  | 7 => ⟨S16384x1, .f32⟩
  | 8 => ⟨S16384x2048, .f32⟩
  | 9 => ⟨S16384x2048, .f32⟩
  | 10 => ⟨S1x2048, .f32⟩
  | 11 => ⟨S16384x2048, .f32⟩
  | 12 => ⟨S16384x2048, .f32⟩
  | _ => ⟨S16384x32x32, .f32⟩

abbrev hbmTy (i : Nat) : BufTy := match i / 128 with
  | 0 => hbmTy0_0 i
  | 1 => hbmTy0_1 i
  | _ => ⟨S16384x32x32, .f32⟩

abbrev bufTy : (tb : Table) → Fin (tcTables nBuf tb) → BufTy
  | .hbm, ⟨i, _⟩ => hbmTy i
  | _, _ => ⟨S16384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_v31 : Ref sig .tc := ⟨.hbm, 73, rfl⟩
abbrev main_v32 : Ref sig .tc := ⟨.hbm, 74, rfl⟩
abbrev main_cst_3 : Ref sig .tc := ⟨.hbm, 75, rfl⟩
abbrev main_v33 : Ref sig .tc := ⟨.hbm, 76, rfl⟩
abbrev main_v34 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_cst_4 : Ref sig .tc := ⟨.hbm, 108, rfl⟩
abbrev main_v52 : Ref sig .tc := ⟨.hbm, 109, rfl⟩
abbrev main_v53 : Ref sig .tc := ⟨.hbm, 110, rfl⟩
abbrev main_cst_5 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_cst_6 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_cst_7 : Ref sig .tc := ⟨.hbm, 126, rfl⟩
abbrev main_v67 : Ref sig .tc := ⟨.hbm, 127, rfl⟩
abbrev main_v68 : Ref sig .tc := ⟨.hbm, 128, rfl⟩
abbrev main_cst_8 : Ref sig .tc := ⟨.hbm, 129, rfl⟩
abbrev main_v69 : Ref sig .tc := ⟨.hbm, 130, rfl⟩
abbrev main_v70 : Ref sig .tc := ⟨.hbm, 131, rfl⟩
abbrev main_cst_9 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩

abbrev nD : Nat := 1
abbrev τ : Topo := Topo.v7x

variable {F : FTy → Type} [FloatOps F]

class Facts₀ : Prop where
  shapeCasts_S16384x32x32_S16384x1024 : S16384x32x32.ShapeCasts S16384x1024
  bcast_S_S16384x12 : S_.BroadcastsInDim S16384x12 (![] : Fin 0 → Fin S16384x12.rank)
  concatenates_S16384x1024_S16384x12_S16384x1036_d1 : Shape.Concatenates [S16384x1024, S16384x12] S16384x1036 1
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S2048 : S_.BroadcastsInDim S2048 (![] : Fin 0 → Fin S2048.rank)
  bcast_S_S1x2048 : S_.BroadcastsInDim S1x2048 (![] : Fin 0 → Fin S1x2048.rank)
  concatenates_S16384x2048_S16384x2048_S16384x4096_d1 : Shape.Concatenates [S16384x2048, S16384x2048] S16384x4096 1
  bcast_S_S16384x2048 : S_.BroadcastsInDim S16384x2048 (![] : Fin 0 → Fin S16384x2048.rank)
  reducesTo_S16384x2048_S16384_d1 : S16384x2048.ReducesTo [1] S16384
  bcast_S16384x1_S16384x2048_0_1 : S16384x1.BroadcastsInDim S16384x2048 (![0, 1] : Fin 2 → Fin S16384x2048.rank)
  dot_S16384x1036_S1036x1024_S16384x1024_1_0_0_1_n_n_wf : DotDims.WF S16384x1036 S1036x1024 S16384x1024 [1] [0] [0] [1] [] []
  dot_S16384x1024_S1024x2048_S16384x2048_1_0_0_1_n_n_wf : DotDims.WF S16384x1024 S1024x2048 S16384x2048 [1] [0] [0] [1] [] []
  dot_S16384x2048_S2048x16_S16384x16_1_0_0_1_n_n_wf : DotDims.WF S16384x2048 S2048x16 S16384x16 [1] [0] [0] [1] [] []
  dot_S16384x16_S16x2048_S16384x2048_1_0_0_1_n_n_wf : DotDims.WF S16384x16 S16x2048 S16384x2048 [1] [0] [0] [1] [] []
  dot_S16384x4096_S4096x2048_S16384x2048_1_0_0_1_n_n_wf : DotDims.WF S16384x4096 S4096x2048 S16384x2048 [1] [0] [0] [1] [] []

variable [Facts₀]

def dot_S16384x1036_S1036x1024_S16384x1024_1_0_0_1_n_n : DotDims S16384x1036 S1036x1024 S16384x1024 where
  lhsContracting := [1]
  rhsContracting := [0]
  lhsNonContracting := [0]
  rhsNonContracting := [1]
  lhsBatch := []
  rhsBatch := []
  wf := dot_S16384x1036_S1036x1024_S16384x1024_1_0_0_1_n_n_wf
def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf
def dot_S16384x2048_S2048x16_S16384x16_1_0_0_1_n_n : DotDims S16384x2048 S2048x16 S16384x16 where
  lhsContracting := [1]
  rhsContracting := [0]
  lhsNonContracting := [0]
  rhsNonContracting := [1]
  lhsBatch := []
  rhsBatch := []
  wf := dot_S16384x2048_S2048x16_S16384x16_1_0_0_1_n_n_wf
def dot_S16384x16_S16x2048_S16384x2048_1_0_0_1_n_n : DotDims S16384x16 S16x2048 S16384x2048 where
  lhsContracting := [1]
  rhsContracting := [0]
  lhsNonContracting := [0]
  rhsNonContracting := [1]
  lhsBatch := []
  rhsBatch := []
  wf := dot_S16384x16_S16x2048_S16384x2048_1_0_0_1_n_n_wf
def dot_S16384x4096_S4096x2048_S16384x2048_1_0_0_1_n_n : DotDims S16384x4096 S4096x2048 S16384x2048 where
  lhsContracting := [1]
  rhsContracting := [0]
  lhsNonContracting := [0]
  rhsNonContracting := [1]
  lhsBatch := []
  rhsBatch := []
  wf := dot_S16384x4096_S4096x2048_S16384x2048_1_0_0_1_n_n_wf

class Facts : Prop extends Facts₀ where

variable [Facts]
-- ==== Proof.KernelRun.lean ====
/-
  The idealized kernel's run with its result NAMED: every weakly fair execution of the two-region program terminates
  without a fault, the result array ends at what the second region's write-backs leave over the first region's exit
  contents (the fold of buffer contents through the program's segments, at the result's buffer), and every argument
  array ends as launched. It is the program's frame over the same segments, with the result's buffer read out of the
  last thread state beside the arguments.
-/
import proofs.«157429_j38328288149699_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result's buffer at the last boundary's contents and the arguments unchanged. -/
theorem run_named : θ_run defs (onTc (τ := τ) (main (F := F))) ⟨m, fun _ => 0, ρ⟩ (fun r => ∀ c : Dev nD,
      r.2.mem ((c.tc : Thread nD τ).loc main_v23) = W7 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v23 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c)⟩)

end Cert.KernelIdeal.Named

end
-- ==== Proof.Consts.lean ====
/-
  The float words `1.0` and `+0.0` as extended reals: the numbers one and zero. (The reference spells the logistic
  function as `1 / (1 + e⁻ˣ)` with the word `1.0`; the kernel's one operation is that expression with the number one.)
-/
import Idealize.ShloMosaic.PureOps.Ideal

noncomputable section

namespace Cert.Consts

open Idealize.ShloMosaic

/-- The float literals of the two programs as extended reals (never evaluated: the same words stand on both sides). -/
abbrev one : EReal := Ideal.ofBits .f32 0x3F800000#32
abbrev eps : EReal := Ideal.ofBits .f32 0x38D1B717#32
abbrev c1024 : EReal := Ideal.ofBits .f32 0x44800000#32
abbrev c2048 : EReal := Ideal.ofBits .f32 0x45000000#32

/-- The clipped action `a / max(|a|, 1)`. -/
def clip (a : EReal) : EReal := Ideal.div a (max (FloatOps.absf (F := Ideal) (φ := .f32) a) one)

/-- The word of `1.0` denotes one. -/
theorem ofBits_one : Ideal.ofBits .f32 0x3F800000#32 = 1 := by
  simp [Ideal.ofBits, Ideal.ieee, -EReal.coe_mul]; norm_num

/-- The word of `+0.0` denotes zero. -/
theorem ofBits_zero : Ideal.ofBits .f32 0x00000000#32 = 0 := by
  simp [Ideal.ofBits, Ideal.ieee]

/-- The logistic function in the reference's spelling. -/
theorem logistic_spelt (y : EReal) :
    Ideal.div (Ideal.ofBits .f32 0x3F800000#32) (Ideal.ofBits .f32 0x3F800000#32 + Ideal.exp (-y)) = Ideal.logistic y := by
  rw [ofBits_one]; rfl

end Cert.Consts

end
-- ==== Proof.HostVals.lean ====
/-
  What the host operations in front of the first kernel leave in the buffers the two kernels read, as functions of
  the program's arguments: the flattened `stoch`; the two row ranges of `W1`; `W2`; the two fused gate/candidate
  weight matrices `[Wg₁ | Wc₁]`, `[Wg₂ | Wc₂]` and the fused bias `[bg | bc]`; the step vector `dt = softplus(dt_p) + ε`
  and the decay vector `exp(−softplus(a_log) · dt)`. (A change of float format is the identity at the ideal instance, so
  the converted copies are the same numbers.) The softplus vectors are spelt with the reference's own stage functions:
  the two programs compute them by the same operations.
-/
import proofs.«157429_j38328288149699_2_alg».proof.Proof.Gen.KernelIdeal.Frame
import proofs.«157429_j38328288149699_2_alg».proof.Proof.Gen.ReferenceIdeal.Read
import proofs.«157429_j38328288149699_2_alg».proof.Proof.Consts
import Idealize.ShloMosaic.Lib.ValueIdx
import Idealize.ShloMosaic.Lib.Pipeline.Value
import Idealize.ShloMosaic.Lib.StableHlo.Run

noncomputable section

namespace Cert.KernelIdeal.HostVals

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The flattened `stoch`. -/
theorem at_v0 (c : Dev nD) : V5 m ρ c main_v0 =
    shapeCast S16384x1024 (m ((c : Thread nD τ).loc main_arg0)) shapeCasts_S16384x32x32_S16384x1024 := by
  show StableHlo.after hostOps0_4 (W4 m ρ c) (Proc.devRef .tc main_v0) = _
  after_results_simp <;> rfl

/-- Rows 0–1023 of `W1`. -/
theorem at_v10 (c : Dev nD) : (V5 m ρ c main_v10 : FVec Ideal S1024x1024 .bf16) =
    truncf (F := Ideal) .bf16 (extractStridedSlice S1024x1024 ![0, 0] (m ((c : Thread nD τ).loc main_arg3)) slices_S1036x1024_S1024x1024_0_0) bitsLt_bf16_f32 := by
  show StableHlo.after hostOps0_4 (W4 m ρ c) (Proc.devRef .tc main_v10) = _
  after_results_simp <;> rfl

/-- Rows 1024–1035 of `W1`. -/
theorem at_v11 (c : Dev nD) : (V5 m ρ c main_v11 : FVec Ideal S12x1024 .bf16) =
    truncf (F := Ideal) .bf16 (extractStridedSlice S12x1024 ![1024, 0] (m ((c : Thread nD τ).loc main_arg3)) slices_S1036x1024_S12x1024_1024_0) bitsLt_bf16_f32 := by
  show StableHlo.after hostOps0_4 (W4 m ρ c) (Proc.devRef .tc main_v11) = _
  after_results_simp <;> rfl

/-- `W2`. -/
theorem at_v12 (c : Dev nD) : (V5 m ρ c main_v12 : FVec Ideal S1024x2048 .bf16) =
    truncf (F := Ideal) .bf16 (m ((c : Thread nD τ).loc main_arg6) : FVec Ideal S1024x2048 .f32) bitsLt_bf16_f32 := by
  show StableHlo.after hostOps0_4 (W4 m ρ c) (Proc.devRef .tc main_v12) = _
  after_results_simp <;> rfl

/-- `[Wg₁ | Wc₁]`: the upper halves of `Wg` and `Wc` side by side. -/
theorem at_v13 (c : Dev nD) : (V5 m ρ c main_v13 : FVec Ideal S2048x4096 .bf16) =
    truncf (F := Ideal) .bf16 (concatenate S2048x4096 1
      [⟨S2048x2048, extractStridedSlice S2048x2048 ![0, 0] (m ((c : Thread nD τ).loc main_arg12)) slices_S4096x2048_S2048x2048_0_0⟩,
       ⟨S2048x2048, extractStridedSlice S2048x2048 ![0, 0] (m ((c : Thread nD τ).loc main_arg14)) slices_S4096x2048_S2048x2048_0_0⟩]
      concatenates_S2048x2048_S2048x2048_S2048x4096_d1) bitsLt_bf16_f32 := by
  show StableHlo.after hostOps0_4 (W4 m ρ c) (Proc.devRef .tc main_v13) = _
  after_results_simp <;> rfl

/-- `[Wg₂ | Wc₂]`: the lower halves of `Wg` and `Wc` side by side. -/
theorem at_v14 (c : Dev nD) : (V5 m ρ c main_v14 : FVec Ideal S2048x4096 .bf16) =
    truncf (F := Ideal) .bf16 (concatenate S2048x4096 1
      [⟨S2048x2048, extractStridedSlice S2048x2048 ![2048, 0] (m ((c : Thread nD τ).loc main_arg12)) slices_S4096x2048_S2048x2048_2048_0⟩,
       ⟨S2048x2048, extractStridedSlice S2048x2048 ![2048, 0] (m ((c : Thread nD τ).loc main_arg14)) slices_S4096x2048_S2048x2048_2048_0⟩]
      concatenates_S2048x2048_S2048x2048_S2048x4096_d1) bitsLt_bf16_f32 := by
  show StableHlo.after hostOps0_4 (W4 m ρ c) (Proc.devRef .tc main_v14) = _
  after_results_simp <;> rfl

/-- `[bg | bc]`. -/
theorem at_v9 (c : Dev nD) : V5 m ρ c main_v9 =
    concatenate S4096 0 [⟨S2048, m ((c : Thread nD τ).loc main_arg13)⟩, ⟨S2048, m ((c : Thread nD τ).loc main_arg15)⟩]
      concatenates_S2048_S2048_S4096_d0 := by
  show StableHlo.after hostOps0_4 (W4 m ρ c) (Proc.devRef .tc main_v9) = _
  after_results_simp <;> rfl

/-- The step vector: `softplus(dt_p) + ε`. -/
def dtVec (x11 : FVec Ideal S2048 .f32) : FVec Ideal S2048 .f32 :=
  addf (Cert.ReferenceIdeal.Read.val_main_v31 (F := Ideal) x11)
    (broadcastInDim S2048 ![] bcast_S_S2048 (constant (F := Ideal) S_ .f32 0x38D1B717#32))

/-- The decay vector: `exp(−softplus(a_log) · dt)`. -/
def decayVec (x10 x11 : FVec Ideal S2048 .f32) : FVec Ideal S2048 .f32 :=
  Host.exp (mulf (Host.negf (Cert.ReferenceIdeal.Read.val_main_v35 (F := Ideal) x10)) (dtVec x11))

/-- The step vector at an entry. -/
theorem dtVec_at (x11 : FVec Ideal S2048 .f32) (q : Fin 2048) :
    dtVec x11 (ValueIdx.ix1 q) = Cert.ReferenceIdeal.Read.val_main_v31 (F := Ideal) x11 (ValueIdx.ix1 q) + Cert.Consts.eps := by
  unfold dtVec
  rw [ValueIdx.addf_apply]
  refine congrArg₂ (· + ·) rfl ?_
  exact broadcastInDim_apply _ bcast_S_S2048 (constant (F := Ideal) S_ .f32 0x38D1B717#32) (ValueIdx.ix1 q) ValueIdx.ix0 (fun a => a.elim0)

/-- The decay vector at an entry. -/
theorem decayVec_at (x10 x11 : FVec Ideal S2048 .f32) (q : Fin 2048) :
    decayVec x10 x11 (ValueIdx.ix1 q) =
      Ideal.exp (-(Cert.ReferenceIdeal.Read.val_main_v35 (F := Ideal) x10 (ValueIdx.ix1 q)) * dtVec x11 (ValueIdx.ix1 q)) := rfl

set_option maxHeartbeats 4000000 in
theorem at_v17 (c : Dev nD) : V5 m ρ c main_v17 = dtVec (m ((c : Thread nD τ).loc main_arg11)) := by
  show StableHlo.after hostOps0_4 (W4 m ρ c) (Proc.devRef .tc main_v17) = _
  after_results_simp <;> rfl

set_option maxHeartbeats 4000000 in
theorem at_v21 (c : Dev nD) : V5 m ρ c main_v21 =
    decayVec (m ((c : Thread nD τ).loc main_arg10)) (m ((c : Thread nD τ).loc main_arg11)) := by
  show StableHlo.after hostOps0_4 (W4 m ρ c) (Proc.devRef .tc main_v21) = _
  after_results_simp <;> rfl

/-- The arguments the kernels read directly are as launched at the first kernel's entry. -/
theorem at_arg (c : Dev nD) :
    V5 m ρ c main_arg1 = m ((c : Thread nD τ).loc main_arg1) ∧ V5 m ρ c main_arg2 = m ((c : Thread nD τ).loc main_arg2)
    ∧ V5 m ρ c main_arg4 = m ((c : Thread nD τ).loc main_arg4) ∧ V5 m ρ c main_arg5 = m ((c : Thread nD τ).loc main_arg5)
    ∧ V5 m ρ c main_arg7 = m ((c : Thread nD τ).loc main_arg7) ∧ V5 m ρ c main_arg8 = m ((c : Thread nD τ).loc main_arg8)
    ∧ V5 m ρ c main_arg9 = m ((c : Thread nD τ).loc main_arg9) ∧ V5 m ρ c main_arg16 = m ((c : Thread nD τ).loc main_arg16) := by
  refine ⟨?_, ?_, ?_, ?_, ?_, ?_, ?_, ?_⟩
  · show StableHlo.after hostOps0_4 (W4 m ρ c) (Proc.devRef .tc main_arg1) = _
    after_results_simp <;> rfl
  · show StableHlo.after hostOps0_4 (W4 m ρ c) (Proc.devRef .tc main_arg2) = _
    after_results_simp <;> rfl
  · show StableHlo.after hostOps0_4 (W4 m ρ c) (Proc.devRef .tc main_arg4) = _
    after_results_simp <;> rfl
  · show StableHlo.after hostOps0_4 (W4 m ρ c) (Proc.devRef .tc main_arg5) = _
    after_results_simp <;> rfl
  · show StableHlo.after hostOps0_4 (W4 m ρ c) (Proc.devRef .tc main_arg7) = _
    after_results_simp <;> rfl
  · show StableHlo.after hostOps0_4 (W4 m ρ c) (Proc.devRef .tc main_arg8) = _
    after_results_simp <;> rfl
  · show StableHlo.after hostOps0_4 (W4 m ρ c) (Proc.devRef .tc main_arg9) = _
    after_results_simp <;> rfl
  · show StableHlo.after hostOps0_4 (W4 m ρ c) (Proc.devRef .tc main_arg16) = _
    after_results_simp <;> rfl

end Cert.KernelIdeal.HostVals

end
-- ==== Proof.LibPlainDot.lean ====
/-
  The rows-times-columns matrix product `[M, K] × [K, N] → [M, N]` (the left operand contracted on its axis 1, the
  right one on its axis 0, no batch axis) read at an index, at the ideal instance where a float is an extended
  real: entry `(r, c)` is `∑ k, lhs (r, k) * rhs (k, c)`.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Proof.PlainDot

/-- The product's dimension numbers; their conditions `wf` are decided on a program's literal shapes. -/
abbrev plainDot (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section Index
variable {M K N : Nat} (wf : DotDims.WF ⟨2, ![M, K]⟩ ⟨2, ![K, N]⟩ ⟨2, ![M, N]⟩ [1] [0] [0] [1] [] [])

/-- The contraction index set is the one coordinate range `Fin K`. -/
abbrev contrEquiv : (plainDot M K N wf).contr.Idx ≃ Fin K := contrEquiv1 (plainDot M K N wf) K rfl rfl

/-- At result index `(r, c)` and contraction coordinate `k` the left operand is read at `(r, k)` … -/
theorem lhsIdx_eq (r : Fin M) (c : Fin N) (k : Fin K) :
    (plainDot M K N wf).lhsIdx (ix2 r c) ((contrEquiv wf).symm k) = ix2 r k := by
  funext a
  refine Fin.ext ?_
  match a with
  | ⟨0, _⟩ => rfl
  | ⟨1, _⟩ => rfl

/-- … and the right operand at `(k, c)`. -/
theorem rhsIdx_eq (r : Fin M) (c : Fin N) (k : Fin K) :
    (plainDot M K N wf).rhsIdx (ix2 r c) ((contrEquiv wf).symm k) = ix2 k c := by
  funext a
  refine Fin.ext ?_
  match a with
  | ⟨0, _⟩ => rfl
  | ⟨1, _⟩ => rfl

/-- THE CONTRACTION'S SUM over the contraction index set is the sum over `k : Fin K` of `lhs (r, k) * rhs (k, c)`. -/
theorem contr_sum (lhs : (⟨2, ![M, K]⟩ : Shape).Idx → EReal) (rhs : (⟨2, ![K, N]⟩ : Shape).Idx → EReal)
    (r : Fin M) (c : Fin N) :
    (∑ k : (plainDot M K N wf).contr.Idx,
        lhs ((plainDot M K N wf).lhsIdx (ix2 r c) k) * rhs ((plainDot M K N wf).rhsIdx (ix2 r c) k)) =
      ∑ k : Fin K, lhs (ix2 r k) * rhs (ix2 k c) := by
  rw [← Equiv.sum_comp (contrEquiv wf).symm]
  refine Finset.sum_congr rfl fun k _ => ?_
  rw [lhsIdx_eq, rhsIdx_eq]

end Index

section Apply
variable {M K N : Nat} {φ₁ φ₂ : FTy} (wf : DotDims.WF ⟨2, ![M, K]⟩ ⟨2, ![K, N]⟩ ⟨2, ![M, N]⟩ [1] [0] [0] [1] [] [])
  (prec : Option ContractPrecision) (lhs : FVec Ideal ⟨2, ![M, K]⟩ φ₁) (rhs : FVec Ideal ⟨2, ![K, N]⟩ φ₂)

/-- A matrix-unit product onto any accumulator, read at `(r, c)`: the accumulator there plus the sum. -/
theorem matmul_plain_apply (acc : FVec Ideal ⟨2, ![M, N]⟩ .f32) (r : Fin M) (c : Fin N) :
    FloatOps.matmul (plainDot M K N wf) prec lhs rhs acc (ix2 r c) = acc (ix2 r c) + ∑ k : Fin K, lhs (ix2 r k) * rhs (ix2 k c) := by
  rw [Ideal.matmul_apply, contr_sum]

/-- Onto the zero splat, read at `(r, c)`: the sum. -/
theorem matmul_zero_plain_apply (r : Fin M) (c : Fin N) :
    FloatOps.matmul (plainDot M K N wf) prec lhs rhs (constant ⟨2, ![M, N]⟩ .f32 0x00000000#32) (ix2 r c) =
      ∑ k : Fin K, lhs (ix2 r k) * rhs (ix2 k c) := by
  rw [Ideal.matmul_constant_zero_apply, contr_sum]

/-- The same two in the spelling a kernel body prints (`matmul d prec lhs rhs acc`). -/
theorem matmul_plain_apply' (acc : FVec Ideal ⟨2, ![M, N]⟩ .f32) (r : Fin M) (c : Fin N) :
    matmul (F := Ideal) (plainDot M K N wf) prec lhs rhs acc (ix2 r c) = acc (ix2 r c) + ∑ k : Fin K, lhs (ix2 r k) * rhs (ix2 k c) :=
  matmul_plain_apply wf prec lhs rhs acc r c
theorem matmul_zero_plain_apply' (r : Fin M) (c : Fin N) :
    matmul (F := Ideal) (plainDot M K N wf) prec lhs rhs (constant ⟨2, ![M, N]⟩ .f32 0x00000000#32) (ix2 r c) =
      ∑ k : Fin K, lhs (ix2 r k) * rhs (ix2 k c) :=
  matmul_zero_plain_apply wf prec lhs rhs r c

/-- The host's product at any schedule key, read at `(r, c)`: the sum. -/
theorem dotGeneralAt_plain_apply (sched : HostSchedule) (r : Fin M) (c : Fin N) :
    FloatOps.dotGeneral (plainDot M K N wf) prec sched lhs rhs (ix2 r c) = ∑ k : Fin K, lhs (ix2 r k) * rhs (ix2 k c) := by
  rw [Ideal.dotGeneral_apply, contr_sum]

/-- The host's product as a reference prints it, read at `(r, c)`: the sum. -/
theorem dotGeneral_plain_apply (r : Fin M) (c : Fin N) :
    Host.dotGeneral (F := Ideal) (plainDot M K N wf) prec lhs rhs (ix2 r c) = ∑ k : Fin K, lhs (ix2 r k) * rhs (ix2 k c) :=
  dotGeneralAt_plain_apply wf prec lhs rhs .single r c

end Apply

/-- A program's own record with the same lists is this one (the check that the lemmas rewrite a printed product). -/
example (d : DotDims ⟨2, ![7, 5]⟩ ⟨2, ![5, 3]⟩ ⟨2, ![7, 3]⟩)
    (hd : d = { lhsContracting := [1], rhsContracting := [0], lhsNonContracting := [0], rhsNonContracting := [1], lhsBatch := [], rhsBatch := [] })
    (l : FVec Ideal ⟨2, ![7, 5]⟩ .bf16) (rr : FVec Ideal ⟨2, ![5, 3]⟩ .bf16) (r : Fin 7) (c : Fin 3) :
    matmul (F := Ideal) d none l rr (constant ⟨2, ![7, 3]⟩ .f32 0x00000000#32) (ix2 r c) = ∑ k : Fin 5, l (ix2 r k) * rr (ix2 k c) := by
  subst hd
  rw [matmul_zero_plain_apply' (by decide)]

end Cert.Proof.PlainDot

end
-- ==== Proof.LibKeepdims.lean ====
import Idealize.ShloMosaic.Lib.ValueIdx
import Idealize.ShloMosaic.Lib.Pipeline.Value
import Idealize.ShloMosaic.PureOps.Ideal.Laws

/-!
# A row reduction that keeps its axis, read at an index

What `jnp.sum(v, axis=-1, keepdims=True)` and its use against a matrix become inside a kernel body, each read at an
index written by its coordinates:

* the lane sum of an [n, c] array into [n] at the ideal instance: entry `r` is `∑ k, src (r, k)`;
* a vector [a] recast as a column [a, 1]: entry `(p, 0)` is entry `p`;
* a column [a, 1] broadcast to [a, b]: entry `(p, q)` is entry `(p, 0)`;
* a matrix product contracting BOTH operands on their axis 1 ([m, k] times [n, k] transposed) into the zero
  accumulator at the ideal instance: entry `(r, c)` is `∑ k, lhs (r, k) * rhs (c, k)`, for a kernel's `tpu.matmul`
  and for the host's `dot_general`.

The layout lemmas do not depend on what the entries are.
-/

noncomputable section

namespace Cert.LibKeepdims

open Idealize.ShloMosaic Idealize.ShloMosaic.ValueIdx
open scoped BigOperators

section Layout
variable {α : Type}

/-- A vector recast as a column: the same numbers in the same order. -/
theorem columnOfVector_cast_at {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  shapeCast_apply v h (ix2 p z) (ix1 p) (by
    have hz : z.val = 0 := by omega
    rw [Shape.rowMajor_val_two, Shape.rowMajor_val_one]
    show p.val = p.val * 1 + z.val
    omega)

/-- A column broadcast along the rows' direction: every entry of row `p` is the column's entry `p`. -/
theorem broadcastTo_a1_ab_at {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

section Sums
variable {φ : FTy}

/-- The lane sum (a `vector.multi_reduction <add>` over axis 1 from the neutral word) at row `r`. -/
theorem laneSum_at {n c : ℕ} (src : FVec Ideal ⟨2, ![n, c]⟩ φ) (acc : BitVec φ.bits)
    (h : (⟨2, ![n, c]⟩ : Shape).Reduces [1] ⟨1, ![n]⟩) (hφ : FKind.Formats φ) (hacc : acc = FKind.add.neutral φ hφ)
    (r : Fin n) :
    multiReduction .add [1] ⟨1, ![n]⟩ src acc h hφ hacc (ix1 r) = ∑ k : Fin c, src (ix2 r k) := by
  refine (Ideal.multiReduction_add_single src acc h hφ hacc (ix1 r)).trans ?_
  refine Finset.sum_congr rfl fun k _ => congrArg src ?_
  funext d
  apply Fin.ext
  match d with
  | ⟨0, _⟩ => rfl
  | ⟨1, _⟩ => rfl

/-- The dimension numbers of a product contracting both operands on their axis 1 (`A · Bᵀ`); their conditions
    `wf` are decided on a program's literal shapes. -/
abbrev abtDot (M K N : ℕ) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : ℕ} (wf : DotDims.WF ⟨2, ![M, K]⟩ ⟨2, ![N, K]⟩ ⟨2, ![M, N]⟩ [1] [1] [0] [0] [] [])

/-- At result index `(r, c)` and contraction coordinate `k` the left operand is read at `(r, k)` … -/
theorem abt_lhsIdx (r : Fin M) (c : Fin N) (k : Fin K) :
    (abtDot M K N wf).lhsIdx (ix2 r c) ((contrEquiv1 (abtDot M K N wf) K rfl rfl).symm k) = ix2 r k := by
  funext a
  refine Fin.ext ?_
  match a with
  | ⟨0, _⟩ => rfl
  | ⟨1, _⟩ => rfl

/-- … and the right operand at `(c, k)`. -/
theorem abt_rhsIdx (r : Fin M) (c : Fin N) (k : Fin K) :
    (abtDot M K N wf).rhsIdx (ix2 r c) ((contrEquiv1 (abtDot M K N wf) K rfl rfl).symm k) = ix2 c k := by
  funext a
  refine Fin.ext ?_
  match a with
  | ⟨0, _⟩ => rfl
  | ⟨1, _⟩ => rfl

/-- The contraction's sum over its index set is the sum over `k : Fin K` of `lhs (r, k) * rhs (c, k)`. -/
theorem abt_contr_sum (lhs : (⟨2, ![M, K]⟩ : Shape).Idx → EReal) (rhs : (⟨2, ![N, K]⟩ : Shape).Idx → EReal)
    (r : Fin M) (c : Fin N) :
    (∑ k : (abtDot M K N wf).contr.Idx,
        lhs ((abtDot M K N wf).lhsIdx (ix2 r c) k) * rhs ((abtDot M K N wf).rhsIdx (ix2 r c) k)) =
      ∑ k : Fin K, lhs (ix2 r k) * rhs (ix2 c k) := by
  rw [← Equiv.sum_comp (contrEquiv1 (abtDot M K N wf) K rfl rfl).symm]
  refine Finset.sum_congr rfl fun k _ => ?_
  rw [abt_lhsIdx, abt_rhsIdx]

/-- A kernel's `tpu.matmul` of this form into the zero splat, read at `(r, c)`. -/
theorem matmul_abt_zero_at {φ₁ φ₂ : FTy} (prec : Option ContractPrecision) (lhs : FVec Ideal ⟨2, ![M, K]⟩ φ₁)
    (rhs : FVec Ideal ⟨2, ![N, K]⟩ φ₂) (r : Fin M) (c : Fin N) :
    matmul (F := Ideal) (abtDot M K N wf) prec lhs rhs (constant ⟨2, ![M, N]⟩ .f32 0x00000000#32) (ix2 r c) =
      ∑ k : Fin K, lhs (ix2 r k) * rhs (ix2 c k) := by
  refine (Ideal.matmul_constant_zero_apply (abtDot M K N wf) prec lhs rhs (ix2 r c)).trans ?_
  exact abt_contr_sum wf lhs rhs r c

/-- The host's `dot_general` of this form, read at `(r, c)`. -/
theorem dotGeneral_abt_at {φ₁ φ₂ : FTy} (prec : Option ContractPrecision) (lhs : FVec Ideal ⟨2, ![M, K]⟩ φ₁)
    (rhs : FVec Ideal ⟨2, ![N, K]⟩ φ₂) (r : Fin M) (c : Fin N) :
    Host.dotGeneral (F := Ideal) (abtDot M K N wf) prec lhs rhs (ix2 r c) = ∑ k : Fin K, lhs (ix2 r k) * rhs (ix2 c k) := by
  refine (Ideal.dotGeneral_apply (abtDot M K N wf) prec .single lhs rhs (ix2 r c)).trans ?_
  exact abt_contr_sum wf lhs rhs r c

end Sums

end Cert.LibKeepdims

end
-- ==== Proof.BodyA.lean ====
/-
  The first kernel's body at one grid point, at the ideal instance, read entry by entry.

  A point holds 256 rows. Row `p` of the point's block goes through: the clipped action `a / max(|a|, 1)`; the
  pre-activation `x = s·W1s + clip(a)·W1a + b1` (two products summed: the two halves of one product over the joined
  1036 inputs); the root-mean-square scaling `x · rsqrt(mean(x²) + ε) · g1`; `y · logistic(y)`; the second dense layer
  `inp = h·W2 + b2`; the low-rank mixing `deter + (deter·Wu)·Wv`; and `ssm = decay · mixed + dt · inp`.
  Each lemma reads one of these at entry `(p, j)` as a plain expression over the extended reals, sums over `Fin K`.
-/
import proofs.«157429_j38328288149699_2_alg».proof.Proof.Gen.KernelIdeal.Skeleton
import proofs.«157429_j38328288149699_2_alg».proof.Proof.LibPlainDot
import proofs.«157429_j38328288149699_2_alg».proof.Proof.LibKeepdims
import proofs.«157429_j38328288149699_2_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyA

open Cert.KernelIdeal Cert.KernelIdeal.Gen Idealize.ShloMosaic Idealize.ShloMosaic.ValueIdx
open scoped BigOperators
open Cert.Consts (one eps c1024 clip)

/-- The pre-activation of the first dense layer on a block: two products and the bias row. -/
def preact (v0 : FVec Ideal S256x1024 .f32) (v3 : FVec Ideal S256x12 .f32) (v10 : FVec Ideal S1024x1024 .bf16)
    (v13 : FVec Ideal S12x1024 .bf16) (v17 : FVec Ideal S1024 .f32) : FVec Ideal S256x1024 .f32 :=
  addf (addf
      (matmul dot_S256x1024_S1024x1024_S256x1024_1_0_0_1_n_n none
        (truncf .bf16 (shapeCast S256x1024 v0 shapeCasts_S256x1024_S256x1024) bitsLt_bf16_f32)
        (shapeCast S1024x1024 v10 shapeCasts_S1024x1024_S1024x1024) (constant S256x1024 .f32 0x00000000#32))
      (matmul dot_S256x12_S12x1024_S256x1024_1_0_0_1_n_n none
        (truncf .bf16 (divf v3 (maximumf (absf v3) (broadcast S256x12 (Scalar.ofBits .f32 0x3F800000#32)))) bitsLt_bf16_f32)
        (shapeCast S12x1024 v13 shapeCasts_S12x1024_S12x1024) (constant S256x1024 .f32 0x00000000#32)))
    (broadcastTo S256x1024 (shapeCast S1x1024 v17 shapeCasts_S1024_S1x1024) broadcasts_S1x1024_S256x1024)

/-- The root-mean-square scaling of a block's rows, with the gain row. -/
def rmsScale (x : FVec Ideal S256x1024 .f32) (g : FVec Ideal S1024 .f32) : FVec Ideal S256x1024 .f32 :=
  mulf (mulf x (broadcastTo S256x1024
      (rsqrt (addf (divf (shapeCast S256x1 (multiReduction .add [1] S256 (mulf x x) 0x00000000#32 reduces_S256x1024_S256 (.inl rfl) rfl) shapeCasts_S256_S256x1)
          (broadcast S256x1 (Scalar.ofBits .f32 0x44800000#32))) (broadcast S256x1 (Scalar.ofBits .f32 0x38D1B717#32))))
      broadcasts_S256x1_S256x1024))
    (broadcastTo S256x1024 (shapeCast S1x1024 g shapeCasts_S1024_S1x1024) broadcasts_S1x1024_S256x1024)

/-- The hidden activation of the body is `y · logistic y` of the scaled pre-activation. -/
theorem hidden_eq (v0 : FVec Ideal S256x1024 .f32) (v3 : FVec Ideal S256x12 .f32) (v10 : FVec Ideal S1024x1024 .bf16)
    (v13 : FVec Ideal S12x1024 .bf16) (v17 : FVec Ideal S1024 .f32) (v31 : FVec Ideal S1024 .f32) :
    k0_pay4 v0 v3 v10 v13 v17 v31 =
      truncf .bf16 (mulf (rmsScale (preact v0 v3 v10 v13 v17) v31) (logistic (rmsScale (preact v0 v3 v10 v13 v17) v31))) bitsLt_bf16_f32 := rfl

/-- The pre-activation at `(p, j)`. -/
theorem preact_at (v0 : FVec Ideal S256x1024 .f32) (v3 : FVec Ideal S256x12 .f32) (v10 : FVec Ideal S1024x1024 .bf16)
    (v13 : FVec Ideal S12x1024 .bf16) (v17 : FVec Ideal S1024 .f32) (p : Fin 256) (j : Fin 1024) :
    preact v0 v3 v10 v13 v17 (ix2 p j) =
      (∑ k : Fin 1024, v0 (ix2 p k) * v10 (ix2 k j) + ∑ k : Fin 12, clip (v3 (ix2 p k)) * v13 (ix2 k j)) + v17 (ix1 j) := by
  unfold preact
  rw [addf_apply, addf_apply]
  refine congrArg₂ (· + ·) (congrArg₂ (· + ·) ?_ ?_) ?_
  · refine (Cert.Proof.PlainDot.matmul_zero_plain_apply' (M := 256) (K := 1024) (N := 1024) dot_S256x1024_S1024x1024_S256x1024_1_0_0_1_n_n_wf none _ _ p j).trans ?_
    refine Finset.sum_congr rfl fun k _ => ?_
    rw [truncf_apply, shapeCast_self, shapeCast_self]
  · refine (Cert.Proof.PlainDot.matmul_zero_plain_apply' (M := 256) (K := 12) (N := 1024) dot_S256x12_S12x1024_S256x1024_1_0_0_1_n_n_wf none _ _ p j).trans ?_
    refine Finset.sum_congr rfl fun k _ => ?_
    rw [truncf_apply, shapeCast_self]
    rfl
  · rw [broadcastTo_1b_ab_apply, shapeCast_a_1a_apply]

/-- The scaled block at `(p, j)`: the entry times `rsqrt` of its row's mean square plus ε, times the gain. -/
theorem rmsScale_at (x : FVec Ideal S256x1024 .f32) (g : FVec Ideal S1024 .f32) (p : Fin 256) (j : Fin 1024) :
    rmsScale x g (ix2 p j) =
      x (ix2 p j) * Ideal.rsqrt (Ideal.div (∑ k : Fin 1024, x (ix2 p k) * x (ix2 p k)) c1024 + eps) * g (ix1 j) := by
  unfold rmsScale
  rw [mulf_apply, mulf_apply, broadcastTo_1b_ab_apply, shapeCast_a_1a_apply, Cert.LibKeepdims.broadcastTo_a1_ab_at]
  refine congrArg₂ (· * ·) (congrArg₂ (· * ·) rfl ?_) rfl
  show Ideal.rsqrt (Ideal.div (shapeCast S256x1 _ shapeCasts_S256_S256x1 (ix2 p (0 : Fin 1))) c1024 + eps) = _
  rw [Cert.LibKeepdims.columnOfVector_cast_at]
  refine congrArg (fun z => Ideal.rsqrt (Ideal.div z c1024 + eps)) ?_
  exact Cert.LibKeepdims.laneSum_at (mulf x x) 0x00000000#32 reduces_S256x1024_S256 (.inl rfl) rfl p

/-- The second dense layer's output on the block, at `(p, q)`. -/
theorem dense2_at (v37 : FVec Ideal S256x1024 .bf16) (v38 : FVec Ideal S1024x2048 .bf16) (v41 : FVec Ideal S2048 .f32)
    (p : Fin 256) (q : Fin 2048) :
    k0_pay1 v37 v38 v41 (ix2 p q) = ∑ k : Fin 1024, v37 (ix2 p k) * v38 (ix2 k q) + v41 (ix1 q) := by
  unfold k0_pay1
  rw [addf_apply]
  refine congrArg₂ (· + ·) ?_ ?_
  · refine (Cert.Proof.PlainDot.matmul_zero_plain_apply' (M := 256) (K := 1024) (N := 2048) dot_S256x1024_S1024x2048_S256x2048_1_0_0_1_n_n_wf none _ _ p q).trans ?_
    refine Finset.sum_congr rfl fun k _ => ?_
    rw [shapeCast_self]
  · rw [broadcastTo_1b_ab_apply, shapeCast_a_1a_apply]

/-- The state update `ssm` on the block, at `(p, q)`. -/
theorem ssm_at (v2 : FVec Ideal S256x2048 .f32) (v37 : FVec Ideal S256x1024 .bf16) (v38 : FVec Ideal S1024x2048 .bf16)
    (v41 : FVec Ideal S2048 .f32) (v45 : FVec Ideal S2048x16 .f32) (v47 : FVec Ideal S16x2048 .f32) (v50 : FVec Ideal S2048 .f32)
    (v53 : FVec Ideal S2048 .f32) (p : Fin 256) (q : Fin 2048) :
    k0_pay2 v2 v37 v38 v41 v45 v47 v50 v53 (ix2 p q) =
      v53 (ix1 q) * (v2 (ix2 p q) + ∑ k : Fin 16, (∑ l : Fin 2048, v2 (ix2 p l) * v45 (ix2 l k)) * v47 (ix2 k q))
        + v50 (ix1 q) * k0_pay1 v37 v38 v41 (ix2 p q) := by
  unfold k0_pay2
  rw [truncf_apply, addf_apply, mulf_apply, mulf_apply, addf_apply]
  refine congrArg₂ (· + ·) (congrArg₂ (· * ·) ?_ (congrArg₂ (· + ·) rfl ?_)) (congrArg₂ (· * ·) ?_ rfl)
  · rw [broadcastTo_1b_ab_apply, shapeCast_a_1a_apply, shapeCast_self]
  · refine (Cert.Proof.PlainDot.matmul_zero_plain_apply' (M := 256) (K := 16) (N := 2048) dot_S256x16_S16x2048_S256x2048_1_0_0_1_n_n_wf (some .fp32) _ _ p q).trans ?_
    refine Finset.sum_congr rfl fun k _ => ?_
    refine congrArg₂ (· * ·) ?_ rfl
    exact Cert.Proof.PlainDot.matmul_zero_plain_apply' (M := 256) (K := 2048) (N := 16) dot_S256x2048_S2048x16_S256x16_1_0_0_1_n_n_wf (some .fp32) _ _ p k
  · rw [broadcastTo_1b_ab_apply, shapeCast_a_1a_apply, shapeCast_self]

end Cert.KernelIdeal.BodyA

end
-- ==== Proof.Layout.lean ====
/-
  Small facts about re-laid arrays and finite sums, none of them about a particular program:
  a sum over `Fin n` cut at `a` into a sum over `Fin a` and a sum over `Fin b` (`a + b = n`); two matrices laid side by
  side (a concatenation along the columns) read at an entry that falls in the left or in the right one; two vectors laid
  end to end read at an entry.
-/
import Idealize.ShloMosaic.Lib.ValueIdx
import Idealize.ShloMosaic.Lib.Pipeline.Value

noncomputable section

namespace Cert.Layout

open Idealize.ShloMosaic Idealize.ShloMosaic.ValueIdx
open scoped BigOperators

/-- A finite sum cut in two at position `a`. -/
theorem sum_fin_split {M : Type*} [AddCommMonoid M] (a b n : ℕ) (h : a + b = n) (f : Fin n → M) :
    ∑ k : Fin n, f k = ∑ k : Fin a, f ⟨k.val, by omega⟩ + ∑ k : Fin b, f ⟨a + k.val, by omega⟩ := by
  subst h
  rw [Fin.sum_univ_add]
  rfl

variable {α : Type}

/-- Two matrices side by side, read at a column of the left one. -/
theorem concat_cols_left {n a b c : ℕ} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ (1 : Fin 2)) (r : Fin n) (k : Fin c) (k' : Fin a)
    (hk : k'.val = k.val) :
    concatenate ⟨2, ![n, c]⟩ (1 : Fin 2) [⟨⟨2, ![n, a]⟩, x₁⟩, ⟨⟨2, ![n, b]⟩, x₂⟩] h (ix2 r k) = x₁ (ix2 r k') :=
  concatenate_pair_apply_left (1 : Fin 2) x₁ x₂ h (ix2 r k) rfl (ix2 r k') fun d => by
    match d with
    | ⟨0, _⟩ => rfl
    | ⟨1, _⟩ => exact hk

/-- Two matrices side by side, read at a column of the right one. -/
theorem concat_cols_right {n a b c : ℕ} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ (1 : Fin 2)) (r : Fin n) (k : Fin c) (k' : Fin b)
    (hk : k'.val + a = k.val) :
    concatenate ⟨2, ![n, c]⟩ (1 : Fin 2) [⟨⟨2, ![n, a]⟩, x₁⟩, ⟨⟨2, ![n, b]⟩, x₂⟩] h (ix2 r k) = x₂ (ix2 r k') :=
  concatenate_pair_apply_right (1 : Fin 2) x₁ x₂ h (ix2 r k) rfl rfl (ix2 r k')
    (fun d hne => by
      match d with
      | ⟨0, _⟩ => rfl
      | ⟨1, _⟩ => exact absurd rfl hne)
    (by exact hk)

/-- Two vectors end to end, read at an entry of the first one. -/
theorem concat_vec_left {a b c : ℕ} (x₁ : (⟨1, ![a]⟩ : Shape).Idx → α) (x₂ : (⟨1, ![b]⟩ : Shape).Idx → α)
    (h : Shape.Concatenates [⟨1, ![a]⟩, ⟨1, ![b]⟩] ⟨1, ![c]⟩ (0 : Fin 1)) (k : Fin c) (k' : Fin a) (hk : k'.val = k.val) :
    concatenate ⟨1, ![c]⟩ (0 : Fin 1) [⟨⟨1, ![a]⟩, x₁⟩, ⟨⟨1, ![b]⟩, x₂⟩] h (ix1 k) = x₁ (ix1 k') :=
  concatenate_pair_apply_left (0 : Fin 1) x₁ x₂ h (ix1 k) rfl (ix1 k') fun d => by
    match d with
    | ⟨0, _⟩ => exact hk

/-- Two vectors end to end, read at an entry of the second one. -/
theorem concat_vec_right {a b c : ℕ} (x₁ : (⟨1, ![a]⟩ : Shape).Idx → α) (x₂ : (⟨1, ![b]⟩ : Shape).Idx → α)
    (h : Shape.Concatenates [⟨1, ![a]⟩, ⟨1, ![b]⟩] ⟨1, ![c]⟩ (0 : Fin 1)) (k : Fin c) (k' : Fin b) (hk : k'.val + a = k.val) :
    concatenate ⟨1, ![c]⟩ (0 : Fin 1) [⟨⟨1, ![a]⟩, x₁⟩, ⟨⟨1, ![b]⟩, x₂⟩] h (ix1 k) = x₂ (ix1 k') :=
  concatenate_pair_apply_right (0 : Fin 1) x₁ x₂ h (ix1 k) rfl rfl (ix1 k')
    (fun d hne => by
      match d with
      | ⟨0, _⟩ => exact absurd rfl hne)
    (by exact hk)

end Cert.Layout

end
-- ==== Proof.RefRows.lean ====
/-
  The reference program at the ideal instance, read row by row. Row `r` of the batch goes through the same stages as a
  row of a kernel block, on whole arrays: the pre-activation over the joined 1036 inputs (a sum over `Fin 1036`, cut here
  at 1024 into the `stoch` part and the clipped-action part), the root-mean-square scaling, `y · (1 / (1 + e^(−y)))`, the
  second dense layer, the low-rank mixing, the state update, the gate and candidate pre-activations over the joined
  4096 inputs (cut at 2048 into the `ssm` part and the `inp` part), the gated mix and the final scaling. Each lemma reads
  one stage at `(r, j)` from the stages before it at row `r`.
-/
import proofs.«157429_j38328288149699_2_alg».proof.Proof.Gen.ReferenceIdeal.Read
import proofs.«157429_j38328288149699_2_alg».proof.Proof.Layout
import proofs.«157429_j38328288149699_2_alg».proof.Proof.Consts
import Idealize.ShloMosaic.Lib.ValueIdx
import Idealize.ShloMosaic.Lib.Pipeline.Value
import Idealize.ShloMosaic.PureOps.Ideal.Laws

noncomputable section

namespace Cert.ReferenceIdeal.Rows

open Cert.ReferenceIdeal Cert.ReferenceIdeal.Gen Cert.ReferenceIdeal.Read Idealize.ShloMosaic Idealize.ShloMosaic.ValueIdx
open scoped BigOperators
open Cert.Consts (one eps c1024 c2048 clip)

abbrev zero : EReal := Ideal.ofBits .f32 0x00000000#32

/-- Two indices of a small literal rank with equal coordinates are equal. -/
local macro "ix_eq" : tactic =>
  `(tactic| (funext a; apply Fin.ext; revert a; first
      | exact (Fin.forall_fin_one.2 rfl)
      | exact (Fin.forall_fin_two.2 ⟨rfl, rfl⟩)))

variable (x0 : (⟨S16384x32x32, .f32⟩ : BufTy).Contents (Elt Ideal)) (x1 : (⟨S16384x2048, .f32⟩ : BufTy).Contents (Elt Ideal)) (x2 : (⟨S16384x12, .f32⟩ : BufTy).Contents (Elt Ideal))
  (x3 : (⟨S1036x1024, .f32⟩ : BufTy).Contents (Elt Ideal)) (x4 x5 : (⟨S1024, .f32⟩ : BufTy).Contents (Elt Ideal)) (x6 : (⟨S1024x2048, .f32⟩ : BufTy).Contents (Elt Ideal)) (x7 : (⟨S2048, .f32⟩ : BufTy).Contents (Elt Ideal))
  (x8 : (⟨S2048x16, .f32⟩ : BufTy).Contents (Elt Ideal)) (x9 : (⟨S16x2048, .f32⟩ : BufTy).Contents (Elt Ideal)) (x10 x11 : (⟨S2048, .f32⟩ : BufTy).Contents (Elt Ideal)) (x12 : (⟨S4096x2048, .f32⟩ : BufTy).Contents (Elt Ideal))
  (x13 : (⟨S2048, .f32⟩ : BufTy).Contents (Elt Ideal)) (x14 : (⟨S4096x2048, .f32⟩ : BufTy).Contents (Elt Ideal)) (x15 x16 : (⟨S2048, .f32⟩ : BufTy).Contents (Elt Ideal))

/-- The pre-activation at `(r, j)`: the product over the joined inputs cut into its two parts, plus the bias. -/
theorem pre_at (r : Fin 16384) (j : Fin 1024) :
    val_main_v9 (F := Ideal) x0 x2 x3 x4 (ix2 r j) =
      (∑ k : Fin 1024, val_main_v0 (F := Ideal) x0 (ix2 r k) * x3 (ix2 (⟨k.val, by omega⟩ : Fin 1036) j)
        + ∑ k : Fin 12, clip (x2 (ix2 r k)) * x3 (ix2 (⟨1024 + k.val, by omega⟩ : Fin 1036) j)) + x4 (ix1 j) := by
  rw [val_main_v9_apply, val_main_v6_apply, val_main_v8_apply, val_main_v7_apply]
  refine congrArg₂ (· + ·) ?_ (congrArg x4 (by ix_eq))
  rw [Cert.Layout.sum_fin_split 1024 12 1036 rfl]
  refine congrArg₂ (· + ·) (Finset.sum_congr rfl fun k _ => ?_) (Finset.sum_congr rfl fun k _ => ?_)
  · beta_reduce
    refine congrArg₂ (· * ·) ?_ (congrArg x3 (by ix_eq))
    refine (congrArg (val_main_v5 (F := Ideal) x0 x2) (show lidx_main_v6 (ix2 r j) ⟨k.val, by omega⟩ = ix2 r (⟨k.val, by omega⟩ : Fin 1036) from by ix_eq)).trans ?_
    exact Cert.Layout.concat_cols_left (val_main_v0 (F := Ideal) x0) (val_main_v4 (F := Ideal) x2) concatenates_S16384x1024_S16384x12_S16384x1036_d1 r _ k rfl
  · beta_reduce
    refine congrArg₂ (· * ·) ?_ (congrArg x3 (by ix_eq))
    refine (congrArg (val_main_v5 (F := Ideal) x0 x2) (show lidx_main_v6 (ix2 r j) ⟨1024 + k.val, by omega⟩ = ix2 r (⟨1024 + k.val, by omega⟩ : Fin 1036) from by ix_eq)).trans ?_
    refine (Cert.Layout.concat_cols_right (val_main_v0 (F := Ideal) x0) (val_main_v4 (F := Ideal) x2) concatenates_S16384x1024_S16384x12_S16384x1036_d1 r _ k (by show k.val + 1024 = 1024 + k.val; omega)).trans ?_
    rw [val_main_v4_apply, val_main_v3_apply, val_main_v1_apply, val_main_v2_apply, val_main_cst_apply]
    rfl

/-- The scaled pre-activation at `(r, j)`. -/
theorem scaled_at (r : Fin 16384) (j : Fin 1024) :
    val_main_v22 (F := Ideal) x0 x2 x3 x4 x5 (ix2 r j) =
      val_main_v9 (F := Ideal) x0 x2 x3 x4 (ix2 r j)
        * Ideal.rsqrt (Ideal.div (∑ k : Fin 1024, val_main_v9 (F := Ideal) x0 x2 x3 x4 (ix2 r k) * val_main_v9 (F := Ideal) x0 x2 x3 x4 (ix2 r k)) c1024 + eps)
        * x5 (ix1 j) := by
  rw [val_main_v22_apply, val_main_v19_apply, val_main_v21_apply, val_main_v20_apply, val_main_v18_apply, val_main_v17_apply,
    val_main_v16_apply, val_main_v14_apply, val_main_v12_apply, val_main_v11_apply, val_main_v13_apply, val_main_v15_apply,
    val_main_cst_0_apply, val_main_cst_1_apply, val_main_cst_2_apply]
  refine congrArg₂ (· * ·) (congrArg₂ (· * ·) rfl ?_) (congrArg x5 (by ix_eq))
  show Ideal.rsqrt (Ideal.div (zero + ∑ k : Fin 1024, val_main_v10 (F := Ideal) x0 x2 x3 x4 (idx_main_v11 (idx_main_v12 (idx_main_v18 (ix2 r j))) k)) c1024 + eps) = _
  rw [show zero = 0 from Cert.Consts.ofBits_zero, zero_add]
  refine congrArg (fun z => Ideal.rsqrt (Ideal.div z c1024 + eps)) (Finset.sum_congr rfl fun k _ => ?_)
  rw [val_main_v10_apply, show idx_main_v11 (idx_main_v12 (idx_main_v18 (ix2 r j))) k = ix2 r k from by ix_eq]
  rfl

/-- The hidden activation at `(r, j)`: `y · logistic y` of the scaled pre-activation. -/
theorem hidden_at (r : Fin 16384) (j : Fin 1024) :
    val_main_v23 (F := Ideal) x0 x2 x3 x4 x5 (ix2 r j) = val_main_v22 (F := Ideal) x0 x2 x3 x4 x5 (ix2 r j) * Ideal.logistic (val_main_v22 (F := Ideal) x0 x2 x3 x4 x5 (ix2 r j)) := by
  rw [val_main_v23_apply, val_main_call0_v5_apply, val_main_call0_v4_apply, val_main_call0_cst_0_apply, val_main_call0_v3_apply,
    val_main_call0_v2_apply, val_main_call0_cst_apply, val_main_call0_v1_apply, val_main_call0_v0_apply]
  exact congrArg (val_main_v22 (F := Ideal) x0 x2 x3 x4 x5 (ix2 r j) * ·) (Cert.Consts.logistic_spelt _)

/-- The second dense layer at `(r, q)`. -/
theorem inp_at (r : Fin 16384) (q : Fin 2048) :
    val_main_v27 (F := Ideal) x0 x2 x3 x4 x5 x6 x7 (ix2 r q) = ∑ k : Fin 1024, val_main_v23 (F := Ideal) x0 x2 x3 x4 x5 (ix2 r k) * x6 (ix2 k q) + x7 (ix1 q) := by
  rw [val_main_v27_apply, val_main_v24_apply, val_main_v26_apply, val_main_v25_apply]
  refine congrArg₂ (· + ·) (Finset.sum_congr rfl fun k _ => ?_) (congrArg x7 (by ix_eq))
  exact congrArg₂ (· * ·) (congrArg (val_main_v23 (F := Ideal) x0 x2 x3 x4 x5) (by ix_eq)) (congrArg x6 (by ix_eq))

/-- The low-rank mixing at `(r, q)`. -/
theorem mixed_at (r : Fin 16384) (q : Fin 2048) :
    val_main_v30 (F := Ideal) x1 x8 x9 (ix2 r q) =
      x1 (ix2 r q) + ∑ k : Fin 16, (∑ l : Fin 2048, x1 (ix2 r l) * x8 (ix2 l k)) * x9 (ix2 k q) := by
  rw [val_main_v30_apply, val_main_v29_apply]
  refine congrArg₂ (· + ·) rfl (Finset.sum_congr rfl fun k _ => ?_)
  refine congrArg₂ (· * ·) ?_ (congrArg x9 (by ix_eq))
  rw [show lidx_main_v29 (ix2 r q) k = ix2 r k from by ix_eq, val_main_v28_apply]
  exact Finset.sum_congr rfl fun l _ => congrArg₂ (· * ·) (congrArg x1 (by ix_eq)) (congrArg x8 (by ix_eq))

/-- The step row at column `q`. -/
theorem dt_at (q : Fin 2048) :
    val_main_v34 (F := Ideal) x11 (ix2 (0 : Fin 1) q) = val_main_v31 (F := Ideal) x11 (ix1 q) + eps := by
  rw [val_main_v34_apply, val_main_v32_apply, val_main_v33_apply, val_main_cst_3_apply]
  exact congrArg₂ (· + ·) (congrArg (val_main_v31 (F := Ideal) x11) (by ix_eq)) rfl

/-- The decay row at column `q`. -/
theorem decay_at (q : Fin 2048) :
    val_main_v39 (F := Ideal) x10 x11 (ix2 (0 : Fin 1) q) =
      Ideal.exp (-(val_main_v35 (F := Ideal) x10 (ix1 q)) * val_main_v34 (F := Ideal) x11 (ix2 (0 : Fin 1) q)) := by
  rw [val_main_v39_apply, val_main_v38_apply, val_main_v37_apply, val_main_v36_apply,
    show idx_main_v36 (ix2 (0 : Fin 1) q) = ix1 q from by ix_eq]
  rfl

/-- The state update at `(r, q)`. -/
theorem ssm_at (r : Fin 16384) (q : Fin 2048) :
    val_main_v44 (F := Ideal) x0 x1 x2 x3 x4 x5 x6 x7 x8 x9 x10 x11 (ix2 r q) =
      val_main_v39 (F := Ideal) x10 x11 (ix2 (0 : Fin 1) q) * val_main_v30 (F := Ideal) x1 x8 x9 (ix2 r q)
        + val_main_v34 (F := Ideal) x11 (ix2 (0 : Fin 1) q) * val_main_v27 (F := Ideal) x0 x2 x3 x4 x5 x6 x7 (ix2 r q) := by
  rw [val_main_v44_apply, val_main_v41_apply, val_main_v43_apply, val_main_v40_apply, val_main_v42_apply,
    show idx_main_v40 (ix2 r q) = ix2 (0 : Fin 1) q from by ix_eq, show idx_main_v42 (ix2 r q) = ix2 (0 : Fin 1) q from by ix_eq]
  rfl

/-- The gate's pre-activation at `(r, q)`: the product over the joined 4096 inputs cut into its two parts, plus the bias. -/
theorem gateLin_at (r : Fin 16384) (q : Fin 2048) :
    val_main_v49 (F := Ideal) x0 x1 x2 x3 x4 x5 x6 x7 x8 x9 x10 x11 x12 x13 (ix2 r q) =
      (∑ k : Fin 2048, val_main_v44 (F := Ideal) x0 x1 x2 x3 x4 x5 x6 x7 x8 x9 x10 x11 (ix2 r k) * x12 (ix2 (⟨k.val, by omega⟩ : Fin 4096) q)
        + ∑ k : Fin 2048, val_main_v27 (F := Ideal) x0 x2 x3 x4 x5 x6 x7 (ix2 r k) * x12 (ix2 (⟨2048 + k.val, by omega⟩ : Fin 4096) q)) + x13 (ix1 q) := by
  rw [val_main_v49_apply, val_main_v46_apply, val_main_v48_apply, val_main_v47_apply]
  refine congrArg₂ (· + ·) ?_ (congrArg x13 (by ix_eq))
  rw [Cert.Layout.sum_fin_split 2048 2048 4096 rfl]
  refine congrArg₂ (· + ·) (Finset.sum_congr rfl fun k _ => ?_) (Finset.sum_congr rfl fun k _ => ?_)
  · beta_reduce
    refine congrArg₂ (· * ·) ?_ (congrArg x12 (by ix_eq))
    refine (congrArg (val_main_v45 (F := Ideal) x0 x1 x2 x3 x4 x5 x6 x7 x8 x9 x10 x11) (show lidx_main_v46 (ix2 r q) ⟨k.val, by omega⟩ = ix2 r (⟨k.val, by omega⟩ : Fin 4096) from by ix_eq)).trans ?_
    exact Cert.Layout.concat_cols_left (val_main_v44 (F := Ideal) x0 x1 x2 x3 x4 x5 x6 x7 x8 x9 x10 x11) (val_main_v27 (F := Ideal) x0 x2 x3 x4 x5 x6 x7) concatenates_S16384x2048_S16384x2048_S16384x4096_d1 r _ k rfl
  · beta_reduce
    refine congrArg₂ (· * ·) ?_ (congrArg x12 (by ix_eq))
    refine (congrArg (val_main_v45 (F := Ideal) x0 x1 x2 x3 x4 x5 x6 x7 x8 x9 x10 x11) (show lidx_main_v46 (ix2 r q) ⟨2048 + k.val, by omega⟩ = ix2 r (⟨2048 + k.val, by omega⟩ : Fin 4096) from by ix_eq)).trans ?_
    exact Cert.Layout.concat_cols_right (val_main_v44 (F := Ideal) x0 x1 x2 x3 x4 x5 x6 x7 x8 x9 x10 x11) (val_main_v27 (F := Ideal) x0 x2 x3 x4 x5 x6 x7) concatenates_S16384x2048_S16384x2048_S16384x4096_d1 r _ k (by show k.val + 2048 = 2048 + k.val; omega)

/-- The candidate's pre-activation at `(r, q)`. -/
theorem candLin_at (r : Fin 16384) (q : Fin 2048) :
    val_main_v59 (F := Ideal) x0 x1 x2 x3 x4 x5 x6 x7 x8 x9 x10 x11 x14 x15 (ix2 r q) =
      (∑ k : Fin 2048, val_main_v44 (F := Ideal) x0 x1 x2 x3 x4 x5 x6 x7 x8 x9 x10 x11 (ix2 r k) * x14 (ix2 (⟨k.val, by omega⟩ : Fin 4096) q)
        + ∑ k : Fin 2048, val_main_v27 (F := Ideal) x0 x2 x3 x4 x5 x6 x7 (ix2 r k) * x14 (ix2 (⟨2048 + k.val, by omega⟩ : Fin 4096) q)) + x15 (ix1 q) := by
  rw [val_main_v59_apply, val_main_v56_apply, val_main_v58_apply, val_main_v57_apply]
  refine congrArg₂ (· + ·) ?_ (congrArg x15 (by ix_eq))
  rw [Cert.Layout.sum_fin_split 2048 2048 4096 rfl]
  refine congrArg₂ (· + ·) (Finset.sum_congr rfl fun k _ => ?_) (Finset.sum_congr rfl fun k _ => ?_)
  · beta_reduce
    refine congrArg₂ (· * ·) ?_ (congrArg x14 (by ix_eq))
    refine (congrArg (val_main_v45 (F := Ideal) x0 x1 x2 x3 x4 x5 x6 x7 x8 x9 x10 x11) (show lidx_main_v56 (ix2 r q) ⟨k.val, by omega⟩ = ix2 r (⟨k.val, by omega⟩ : Fin 4096) from by ix_eq)).trans ?_
    exact Cert.Layout.concat_cols_left (val_main_v44 (F := Ideal) x0 x1 x2 x3 x4 x5 x6 x7 x8 x9 x10 x11) (val_main_v27 (F := Ideal) x0 x2 x3 x4 x5 x6 x7) concatenates_S16384x2048_S16384x2048_S16384x4096_d1 r _ k rfl
  · beta_reduce
    refine congrArg₂ (· * ·) ?_ (congrArg x14 (by ix_eq))
    refine (congrArg (val_main_v45 (F := Ideal) x0 x1 x2 x3 x4 x5 x6 x7 x8 x9 x10 x11) (show lidx_main_v56 (ix2 r q) ⟨2048 + k.val, by omega⟩ = ix2 r (⟨2048 + k.val, by omega⟩ : Fin 4096) from by ix_eq)).trans ?_
    exact Cert.Layout.concat_cols_right (val_main_v44 (F := Ideal) x0 x1 x2 x3 x4 x5 x6 x7 x8 x9 x10 x11) (val_main_v27 (F := Ideal) x0 x2 x3 x4 x5 x6 x7) concatenates_S16384x2048_S16384x2048_S16384x4096_d1 r _ k (by show k.val + 2048 = 2048 + k.val; omega)

/-- The gated mix at `(r, q)`. -/
theorem mix_at (r : Fin 16384) (q : Fin 2048) :
    val_main_v65 (F := Ideal) x0 x1 x2 x3 x4 x5 x6 x7 x8 x9 x10 x11 x12 x13 x14 x15 (ix2 r q) =
      Ideal.logistic (val_main_v49 (F := Ideal) x0 x1 x2 x3 x4 x5 x6 x7 x8 x9 x10 x11 x12 x13 (ix2 r q)) * Ideal.tanh (val_main_v59 (F := Ideal) x0 x1 x2 x3 x4 x5 x6 x7 x8 x9 x10 x11 x14 x15 (ix2 r q))
        + (one - Ideal.logistic (val_main_v49 (F := Ideal) x0 x1 x2 x3 x4 x5 x6 x7 x8 x9 x10 x11 x12 x13 (ix2 r q))) * x1 (ix2 r q) := by
  rw [val_main_v65_apply, val_main_v61_apply, val_main_v64_apply, val_main_v63_apply, val_main_v62_apply, val_main_cst_6_apply,
    val_main_v60_apply, val_main_v55_apply, val_main_v54_apply, val_main_cst_5_apply, val_main_v53_apply, val_main_v52_apply,
    val_main_cst_4_apply, val_main_v51_apply, val_main_v50_apply]
  show Ideal.div one (one + Ideal.exp (-(val_main_v49 (F := Ideal) x0 x1 x2 x3 x4 x5 x6 x7 x8 x9 x10 x11 x12 x13 (ix2 r q)))) * Ideal.tanh (val_main_v59 (F := Ideal) x0 x1 x2 x3 x4 x5 x6 x7 x8 x9 x10 x11 x14 x15 (ix2 r q))
      + (one - Ideal.div one (one + Ideal.exp (-(val_main_v49 (F := Ideal) x0 x1 x2 x3 x4 x5 x6 x7 x8 x9 x10 x11 x12 x13 (ix2 r q))))) * x1 (ix2 r q) = _
  rw [Cert.Consts.logistic_spelt]

/-- The result at `(r, q)`: the gated mix scaled by its row's root mean square, times the gain. -/
theorem out_at (r : Fin 16384) (q : Fin 2048) :
    val_main_v78 (F := Ideal) x0 x1 x2 x3 x4 x5 x6 x7 x8 x9 x10 x11 x12 x13 x14 x15 x16 (ix2 r q) =
      val_main_v65 (F := Ideal) x0 x1 x2 x3 x4 x5 x6 x7 x8 x9 x10 x11 x12 x13 x14 x15 (ix2 r q)
        * Ideal.rsqrt (Ideal.div (∑ k : Fin 2048, val_main_v65 (F := Ideal) x0 x1 x2 x3 x4 x5 x6 x7 x8 x9 x10 x11 x12 x13 x14 x15 (ix2 r k) * val_main_v65 (F := Ideal) x0 x1 x2 x3 x4 x5 x6 x7 x8 x9 x10 x11 x12 x13 x14 x15 (ix2 r k)) c2048 + eps)
        * x16 (ix1 q) := by
  rw [val_main_v78_apply, val_main_v75_apply, val_main_v77_apply, val_main_v76_apply, val_main_v74_apply, val_main_v73_apply,
    val_main_v72_apply, val_main_v70_apply, val_main_v68_apply, val_main_v67_apply, val_main_v69_apply, val_main_v71_apply,
    val_main_cst_7_apply, val_main_cst_8_apply, val_main_cst_9_apply]
  refine congrArg₂ (· * ·) (congrArg₂ (· * ·) rfl ?_) (congrArg x16 (by ix_eq))
  show Ideal.rsqrt (Ideal.div (zero + ∑ k : Fin 2048, val_main_v66 (F := Ideal) x0 x1 x2 x3 x4 x5 x6 x7 x8 x9 x10 x11 x12 x13 x14 x15 (idx_main_v67 (idx_main_v68 (idx_main_v74 (ix2 r q))) k)) c2048 + eps) = _
  rw [show zero = 0 from Cert.Consts.ofBits_zero, zero_add]
  refine congrArg (fun z => Ideal.rsqrt (Ideal.div z c2048 + eps)) (Finset.sum_congr rfl fun k _ => ?_)
  rw [val_main_v66_apply, show idx_main_v67 (idx_main_v68 (idx_main_v74 (ix2 r q))) k = ix2 r k from by ix_eq]
  rfl

end Cert.ReferenceIdeal.Rows

end
-- ==== Proof.RowA.lean ====
/-
  One row of the first kernel's block against one row of the reference.

  Let row `p` of a point's blocks be row `r` of the batch: the block of `stoch`, `deter`, `action` at `(p, k)` holds the
  array at `(r, k)`; the weight and bias blocks hold the reference's arrays (the two row ranges of `W1` apart). Then
  the body's hidden activation, second dense layer and state update at `(p, j)` are the reference's stages at `(r, j)`.
  The one law used is that a sum over the joined inputs is the sum of the sums over its two parts — addition on the
  extended reals is commutative and associative, so nothing needs the inputs finite.
-/
import proofs.«157429_j38328288149699_2_alg».proof.Proof.BodyA
import proofs.«157429_j38328288149699_2_alg».proof.Proof.RefRows

noncomputable section

namespace Cert.Bridge.RowA

open Cert.KernelIdeal Cert.KernelIdeal.Gen Idealize.ShloMosaic Idealize.ShloMosaic.ValueIdx
open Cert.KernelIdeal.BodyA
open scoped BigOperators

variable (v0 : FVec Ideal S256x1024 .f32) (v2 : FVec Ideal S256x2048 .f32) (v3 : FVec Ideal S256x12 .f32)
  (v10 : FVec Ideal S1024x1024 .bf16) (v13 : FVec Ideal S12x1024 .bf16) (v17 v31 : FVec Ideal S1024 .f32)
  (v38 : FVec Ideal S1024x2048 .bf16) (v41 : FVec Ideal S2048 .f32) (v45 : FVec Ideal S2048x16 .f32)
  (v47 : FVec Ideal S16x2048 .f32) (v50 v53 : FVec Ideal S2048 .f32)
  (x0 : (⟨Cert.ReferenceIdeal.S16384x32x32, .f32⟩ : BufTy).Contents (Elt Ideal)) (x1 : (⟨Cert.ReferenceIdeal.S16384x2048, .f32⟩ : BufTy).Contents (Elt Ideal)) (x2 : (⟨Cert.ReferenceIdeal.S16384x12, .f32⟩ : BufTy).Contents (Elt Ideal))
  (x3 : (⟨Cert.ReferenceIdeal.S1036x1024, .f32⟩ : BufTy).Contents (Elt Ideal)) (x4 x5 : (⟨Cert.ReferenceIdeal.S1024, .f32⟩ : BufTy).Contents (Elt Ideal)) (x6 : (⟨Cert.ReferenceIdeal.S1024x2048, .f32⟩ : BufTy).Contents (Elt Ideal)) (x7 : (⟨Cert.ReferenceIdeal.S2048, .f32⟩ : BufTy).Contents (Elt Ideal))
  (x8 : (⟨Cert.ReferenceIdeal.S2048x16, .f32⟩ : BufTy).Contents (Elt Ideal)) (x9 : (⟨Cert.ReferenceIdeal.S16x2048, .f32⟩ : BufTy).Contents (Elt Ideal)) (x10 x11 : (⟨Cert.ReferenceIdeal.S2048, .f32⟩ : BufTy).Contents (Elt Ideal))
  (p : Fin 256) (r : Fin 16384)

/-- The pre-activation of row `p` is the reference's at row `r`. -/
theorem pre_row
    (h0 : ∀ k : Fin 1024, v0 (ix2 p k) = Cert.ReferenceIdeal.Read.val_main_v0 (F := Ideal) x0 (ix2 r k))
    (h3 : ∀ k : Fin 12, v3 (ix2 p k) = x2 (ix2 r k))
    (h10 : ∀ (k : Fin 1024) (j : Fin 1024), v10 (ix2 k j) = x3 (ix2 (⟨k.val, by omega⟩ : Fin 1036) j))
    (h13 : ∀ (k : Fin 12) (j : Fin 1024), v13 (ix2 k j) = x3 (ix2 (⟨1024 + k.val, by omega⟩ : Fin 1036) j))
    (h17 : ∀ j : Fin 1024, v17 (ix1 j) = x4 (ix1 j)) (j : Fin 1024) :
    preact v0 v3 v10 v13 v17 (ix2 p j) = Cert.ReferenceIdeal.Read.val_main_v9 (F := Ideal) x0 x2 x3 x4 (ix2 r j) := by
  rw [preact_at, Cert.ReferenceIdeal.Rows.pre_at]
  refine congrArg₂ (· + ·) (congrArg₂ (· + ·) (Finset.sum_congr rfl fun k _ => ?_) (Finset.sum_congr rfl fun k _ => ?_)) (h17 j)
  · exact congrArg₂ (· * ·) (h0 k) (h10 k j)
  · exact congrArg₂ (· * ·) (congrArg Cert.Consts.clip (h3 k)) (h13 k j)

/-- The hidden activation of row `p` is the reference's at row `r`. -/
theorem hidden_row
    (h0 : ∀ k : Fin 1024, v0 (ix2 p k) = Cert.ReferenceIdeal.Read.val_main_v0 (F := Ideal) x0 (ix2 r k))
    (h3 : ∀ k : Fin 12, v3 (ix2 p k) = x2 (ix2 r k))
    (h10 : ∀ (k : Fin 1024) (j : Fin 1024), v10 (ix2 k j) = x3 (ix2 (⟨k.val, by omega⟩ : Fin 1036) j))
    (h13 : ∀ (k : Fin 12) (j : Fin 1024), v13 (ix2 k j) = x3 (ix2 (⟨1024 + k.val, by omega⟩ : Fin 1036) j))
    (h17 : ∀ j : Fin 1024, v17 (ix1 j) = x4 (ix1 j)) (h31 : ∀ j : Fin 1024, v31 (ix1 j) = x5 (ix1 j)) (j : Fin 1024) :
    k0_pay4 (F := Ideal) v0 v3 v10 v13 v17 v31 (ix2 p j) = Cert.ReferenceIdeal.Read.val_main_v23 (F := Ideal) x0 x2 x3 x4 x5 (ix2 r j) := by
  have hpre := pre_row v0 v3 v10 v13 v17 x0 x2 x3 x4 p r h0 h3 h10 h13 h17
  have hsc : ∀ j : Fin 1024, rmsScale (preact v0 v3 v10 v13 v17) v31 (ix2 p j) = Cert.ReferenceIdeal.Read.val_main_v22 (F := Ideal) x0 x2 x3 x4 x5 (ix2 r j) := fun j => by
    rw [rmsScale_at, Cert.ReferenceIdeal.Rows.scaled_at]
    refine congrArg₂ (· * ·) (congrArg₂ (· * ·) (hpre j) ?_) (h31 j)
    refine congrArg (fun z => Ideal.rsqrt (Ideal.div z Cert.Consts.c1024 + Cert.Consts.eps)) (Finset.sum_congr rfl fun k _ => ?_)
    rw [hpre k]
  rw [hidden_eq, truncf_apply, mulf_apply, Cert.ReferenceIdeal.Rows.hidden_at]
  show _ * Ideal.logistic (rmsScale (preact v0 v3 v10 v13 v17) v31 (ix2 p j)) = _
  rw [hsc j]

/-- The second dense layer of row `p` is the reference's at row `r`. -/
theorem inp_row
    (h0 : ∀ k : Fin 1024, v0 (ix2 p k) = Cert.ReferenceIdeal.Read.val_main_v0 (F := Ideal) x0 (ix2 r k))
    (h3 : ∀ k : Fin 12, v3 (ix2 p k) = x2 (ix2 r k))
    (h10 : ∀ (k : Fin 1024) (j : Fin 1024), v10 (ix2 k j) = x3 (ix2 (⟨k.val, by omega⟩ : Fin 1036) j))
    (h13 : ∀ (k : Fin 12) (j : Fin 1024), v13 (ix2 k j) = x3 (ix2 (⟨1024 + k.val, by omega⟩ : Fin 1036) j))
    (h17 : ∀ j : Fin 1024, v17 (ix1 j) = x4 (ix1 j)) (h31 : ∀ j : Fin 1024, v31 (ix1 j) = x5 (ix1 j))
    (h38 : ∀ (k : Fin 1024) (q : Fin 2048), v38 (ix2 k q) = x6 (ix2 k q)) (h41 : ∀ q : Fin 2048, v41 (ix1 q) = x7 (ix1 q))
    (q : Fin 2048) :
    k0_pay1 (F := Ideal) (k0_pay4 v0 v3 v10 v13 v17 v31) v38 v41 (ix2 p q) = Cert.ReferenceIdeal.Read.val_main_v27 (F := Ideal) x0 x2 x3 x4 x5 x6 x7 (ix2 r q) := by
  rw [dense2_at, Cert.ReferenceIdeal.Rows.inp_at]
  refine congrArg₂ (· + ·) (Finset.sum_congr rfl fun k _ => ?_) (h41 q)
  exact congrArg₂ (· * ·) (hidden_row v0 v3 v10 v13 v17 v31 x0 x2 x3 x4 x5 p r h0 h3 h10 h13 h17 h31 k) (h38 k q)

/-- The state update of row `p` is the reference's at row `r`. -/
theorem ssm_row
    (h0 : ∀ k : Fin 1024, v0 (ix2 p k) = Cert.ReferenceIdeal.Read.val_main_v0 (F := Ideal) x0 (ix2 r k))
    (h3 : ∀ k : Fin 12, v3 (ix2 p k) = x2 (ix2 r k))
    (h10 : ∀ (k : Fin 1024) (j : Fin 1024), v10 (ix2 k j) = x3 (ix2 (⟨k.val, by omega⟩ : Fin 1036) j))
    (h13 : ∀ (k : Fin 12) (j : Fin 1024), v13 (ix2 k j) = x3 (ix2 (⟨1024 + k.val, by omega⟩ : Fin 1036) j))
    (h17 : ∀ j : Fin 1024, v17 (ix1 j) = x4 (ix1 j)) (h31 : ∀ j : Fin 1024, v31 (ix1 j) = x5 (ix1 j))
    (h38 : ∀ (k : Fin 1024) (q : Fin 2048), v38 (ix2 k q) = x6 (ix2 k q)) (h41 : ∀ q : Fin 2048, v41 (ix1 q) = x7 (ix1 q))
    (h2 : ∀ q : Fin 2048, v2 (ix2 p q) = x1 (ix2 r q))
    (h45 : ∀ (l : Fin 2048) (k : Fin 16), v45 (ix2 l k) = x8 (ix2 l k))
    (h47 : ∀ (k : Fin 16) (q : Fin 2048), v47 (ix2 k q) = x9 (ix2 k q))
    (h50 : ∀ q : Fin 2048, v50 (ix1 q) = Cert.ReferenceIdeal.Read.val_main_v34 (F := Ideal) x11 (ix2 (0 : Fin 1) q))
    (h53 : ∀ q : Fin 2048, v53 (ix1 q) = Cert.ReferenceIdeal.Read.val_main_v39 (F := Ideal) x10 x11 (ix2 (0 : Fin 1) q))
    (q : Fin 2048) :
    k0_pay2 (F := Ideal) v2 (k0_pay4 v0 v3 v10 v13 v17 v31) v38 v41 v45 v47 v50 v53 (ix2 p q) = Cert.ReferenceIdeal.Read.val_main_v44 (F := Ideal) x0 x1 x2 x3 x4 x5 x6 x7 x8 x9 x10 x11 (ix2 r q) := by
  rw [ssm_at, Cert.ReferenceIdeal.Rows.ssm_at, Cert.ReferenceIdeal.Rows.mixed_at]
  refine congrArg₂ (· + ·) (congrArg₂ (· * ·) (h53 q) (congrArg₂ (· + ·) (h2 q) (Finset.sum_congr rfl fun k _ => ?_)))
    (congrArg₂ (· * ·) (h50 q) (inp_row v0 v3 v10 v13 v17 v31 v38 v41 x0 x2 x3 x4 x5 x6 x7 p r h0 h3 h10 h13 h17 h31 h38 h41 q))
  refine congrArg₂ (· * ·) (Finset.sum_congr rfl fun l _ => ?_) (h47 k q)
  exact congrArg₂ (· * ·) (h2 l) (h45 l k)

end Cert.Bridge.RowA

end
-- ==== Proof.Region0.lean ====
/-
  The first kernel's region: from blocks to arrays.

  Grid point `t` of 64 handles rows `256 t … 256 t + 255` of the batch: its blocks of `stoch`, `deter`, `action` and of the
  two outputs are those rows, its weight and bias blocks are the whole arrays. What the point writes back into each
  output is therefore the block of ONE whole-array function — the reference's `ssm` stage and `inp` stage of the launch
  arguments — and, the 64 blocks tiling the array, each output array ends holding that function.
-/
import proofs.«157429_j38328288149699_2_alg».proof.Proof.Gen.KernelIdeal.Frame
import proofs.«157429_j38328288149699_2_alg».proof.Proof.HostVals
import proofs.«157429_j38328288149699_2_alg».proof.Proof.RowA
import Idealize.ShloMosaic.Lib.Pipeline.Value
import Idealize.ShloMosaic.Lib.ValueLayout

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a <;> rfl

/-! ## The printed index maps over the grid: a row block moves with the point, a whole-array block stays -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 1) = 0 ∧ True :=
  (by decide +kernel : ∀ t : Fin grid0.N, _)
theorem idx0_6 : ∀ t : Fin cfg0.N, win0_6.index t (0 : Fin 1) = 0 ∧ True :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 1) = 0 ∧ True :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)
theorem idx0_11 : ∀ t : Fin cfg0.N, win0_11.index t (0 : Fin 1) = 0 ∧ True :=
  (by decide +kernel : ∀ t : Fin grid0.N, _)
theorem idx0_12 : ∀ t : Fin cfg0.N, win0_12.index t (0 : Fin 1) = 0 ∧ True :=
  (by decide +kernel : ∀ t : Fin grid0.N, _)
theorem idx0_13 : ∀ t : Fin cfg0.N, win0_13.index t (0 : Fin 2) = t.val ∧ win0_13.index t (1 : Fin 2) = 0 :=
  (by decide +kernel : ∀ t : Fin grid0.N, _)
theorem idx0_14 : ∀ t : Fin cfg0.N, win0_14.index t (0 : Fin 2) = t.val ∧ win0_14.index t (1 : Fin 2) = 0 :=
  (by decide +kernel : ∀ t : Fin grid0.N, _)

/-! ## Each input block read at an entry -/

theorem blk0_0_at (c : Dev nD) (t : Fin cfg0.N) (p : Fin 256) (k : Fin 1024) (hr : 256 * t.val + p.val < 16384) :
    (iblk0 (V5 m ρ) c 0 t : Vec Ideal S256x1024 .f32) (ix2 p k) = (V5 m ρ c main_v0 : FVec Ideal S16384x1024 .f32) (ix2 (⟨256 * t.val + p.val, hr⟩ : Fin 16384) k) := by
  obtain ⟨e0, e1⟩ := idx0_0 t
  unfold iblk0
  rw [View.read_apply]
  show V5 m ρ c main_v0 _ = V5 m ρ c main_v0 _
  congr 1
  funext a
  apply Fin.ext
  match a with
  | ⟨0, _⟩ => show win0_0.index t (0 : Fin 2) * 256 + 1 * p.val = 256 * t.val + p.val; rw [e0]; omega
  | ⟨1, _⟩ => show win0_0.index t (1 : Fin 2) * 1024 + 1 * k.val = k.val; rw [e1]; omega

theorem blk0_1_at (c : Dev nD) (t : Fin cfg0.N) (p : Fin 256) (k : Fin 2048) (hr : 256 * t.val + p.val < 16384) :
    (iblk0 (V5 m ρ) c 1 t : Vec Ideal S256x2048 .f32) (ix2 p k) = (V5 m ρ c main_arg1 : FVec Ideal S16384x2048 .f32) (ix2 (⟨256 * t.val + p.val, hr⟩ : Fin 16384) k) := by
  obtain ⟨e0, e1⟩ := idx0_1 t
  unfold iblk0
  rw [View.read_apply]
  show V5 m ρ c main_arg1 _ = V5 m ρ c main_arg1 _
  congr 1
  funext a
  apply Fin.ext
  match a with
  | ⟨0, _⟩ => show win0_1.index t (0 : Fin 2) * 256 + 1 * p.val = 256 * t.val + p.val; rw [e0]; omega
  | ⟨1, _⟩ => show win0_1.index t (1 : Fin 2) * 2048 + 1 * k.val = k.val; rw [e1]; omega

theorem blk0_2_at (c : Dev nD) (t : Fin cfg0.N) (p : Fin 256) (k : Fin 12) (hr : 256 * t.val + p.val < 16384) :
    (iblk0 (V5 m ρ) c 2 t : Vec Ideal S256x12 .f32) (ix2 p k) = (V5 m ρ c main_arg2 : FVec Ideal S16384x12 .f32) (ix2 (⟨256 * t.val + p.val, hr⟩ : Fin 16384) k) := by
  obtain ⟨e0, e1⟩ := idx0_2 t
  unfold iblk0
  rw [View.read_apply]
  show V5 m ρ c main_arg2 _ = V5 m ρ c main_arg2 _
  congr 1
  funext a
  apply Fin.ext
  match a with
  | ⟨0, _⟩ => show win0_2.index t (0 : Fin 2) * 256 + 1 * p.val = 256 * t.val + p.val; rw [e0]; omega
  | ⟨1, _⟩ => show win0_2.index t (1 : Fin 2) * 12 + 1 * k.val = k.val; rw [e1]; omega

theorem blk0_3_at (c : Dev nD) (t : Fin cfg0.N) (k : Fin 1024) (j : Fin 1024) :
    (iblk0 (V5 m ρ) c 3 t : Vec Ideal S1024x1024 .bf16) (ix2 k j) = (V5 m ρ c main_v10 : FVec Ideal S1024x1024 .bf16) (ix2 k j) := by
  obtain ⟨e0, e1⟩ := idx0_3 t
  unfold iblk0
  rw [View.read_apply]
  show V5 m ρ c main_v10 _ = V5 m ρ c main_v10 _
  congr 1
  funext a
  apply Fin.ext
  match a with
  | ⟨0, _⟩ => show win0_3.index t (0 : Fin 2) * 1024 + 1 * k.val = k.val; rw [e0]; omega
  | ⟨1, _⟩ => show win0_3.index t (1 : Fin 2) * 1024 + 1 * j.val = j.val; rw [e1]; omega

theorem blk0_4_at (c : Dev nD) (t : Fin cfg0.N) (k : Fin 12) (j : Fin 1024) :
    (iblk0 (V5 m ρ) c 4 t : Vec Ideal S12x1024 .bf16) (ix2 k j) = (V5 m ρ c main_v11 : FVec Ideal S12x1024 .bf16) (ix2 k j) := by
  obtain ⟨e0, e1⟩ := idx0_4 t
  unfold iblk0
  rw [View.read_apply]
  show V5 m ρ c main_v11 _ = V5 m ρ c main_v11 _
  congr 1
  funext a
  apply Fin.ext
  match a with
  | ⟨0, _⟩ => show win0_4.index t (0 : Fin 2) * 12 + 1 * k.val = k.val; rw [e0]; omega
  | ⟨1, _⟩ => show win0_4.index t (1 : Fin 2) * 1024 + 1 * j.val = j.val; rw [e1]; omega

theorem blk0_5_at (c : Dev nD) (t : Fin cfg0.N) (j : Fin 1024) :
    (iblk0 (V5 m ρ) c 5 t : Vec Ideal S1024 .f32) (ix1 j) = (V5 m ρ c main_arg4 : FVec Ideal S1024 .f32) (ix1 j) := by
  obtain ⟨e0, e1⟩ := idx0_5 t
  unfold iblk0
  rw [View.read_apply]
  show V5 m ρ c main_arg4 _ = V5 m ρ c main_arg4 _
  congr 1
  funext a
  apply Fin.ext
  match a with
  | ⟨0, _⟩ => show win0_5.index t (0 : Fin 1) * 1024 + 1 * j.val = j.val; rw [e0]; omega

theorem blk0_6_at (c : Dev nD) (t : Fin cfg0.N) (j : Fin 1024) :
    (iblk0 (V5 m ρ) c 6 t : Vec Ideal S1024 .f32) (ix1 j) = (V5 m ρ c main_arg5 : FVec Ideal S1024 .f32) (ix1 j) := by
  obtain ⟨e0, e1⟩ := idx0_6 t
  unfold iblk0
  rw [View.read_apply]
  show V5 m ρ c main_arg5 _ = V5 m ρ c main_arg5 _
  congr 1
  funext a
  apply Fin.ext
  match a with
  | ⟨0, _⟩ => show win0_6.index t (0 : Fin 1) * 1024 + 1 * j.val = j.val; rw [e0]; omega

theorem blk0_7_at (c : Dev nD) (t : Fin cfg0.N) (k : Fin 1024) (j : Fin 2048) :
    (iblk0 (V5 m ρ) c 7 t : Vec Ideal S1024x2048 .bf16) (ix2 k j) = (V5 m ρ c main_v12 : FVec Ideal S1024x2048 .bf16) (ix2 k j) := by
  obtain ⟨e0, e1⟩ := idx0_7 t
  unfold iblk0
  rw [View.read_apply]
  show V5 m ρ c main_v12 _ = V5 m ρ c main_v12 _
  congr 1
  funext a
  apply Fin.ext
  match a with
  | ⟨0, _⟩ => show win0_7.index t (0 : Fin 2) * 1024 + 1 * k.val = k.val; rw [e0]; omega
  | ⟨1, _⟩ => show win0_7.index t (1 : Fin 2) * 2048 + 1 * j.val = j.val; rw [e1]; omega

theorem blk0_8_at (c : Dev nD) (t : Fin cfg0.N) (j : Fin 2048) :
    (iblk0 (V5 m ρ) c 8 t : Vec Ideal S2048 .f32) (ix1 j) = (V5 m ρ c main_arg7 : FVec Ideal S2048 .f32) (ix1 j) := by
  obtain ⟨e0, e1⟩ := idx0_8 t
  unfold iblk0
  rw [View.read_apply]
  show V5 m ρ c main_arg7 _ = V5 m ρ c main_arg7 _
  congr 1
  funext a
  apply Fin.ext
  match a with
  | ⟨0, _⟩ => show win0_8.index t (0 : Fin 1) * 2048 + 1 * j.val = j.val; rw [e0]; omega

theorem blk0_9_at (c : Dev nD) (t : Fin cfg0.N) (k : Fin 2048) (j : Fin 16) :
    (iblk0 (V5 m ρ) c 9 t : Vec Ideal S2048x16 .f32) (ix2 k j) = (V5 m ρ c main_arg8 : FVec Ideal S2048x16 .f32) (ix2 k j) := by
  obtain ⟨e0, e1⟩ := idx0_9 t
  unfold iblk0
  rw [View.read_apply]
  show V5 m ρ c main_arg8 _ = V5 m ρ c main_arg8 _
  congr 1
  funext a
  apply Fin.ext
  match a with
  | ⟨0, _⟩ => show win0_9.index t (0 : Fin 2) * 2048 + 1 * k.val = k.val; rw [e0]; omega
  | ⟨1, _⟩ => show win0_9.index t (1 : Fin 2) * 16 + 1 * j.val = j.val; rw [e1]; omega

theorem blk0_10_at (c : Dev nD) (t : Fin cfg0.N) (k : Fin 16) (j : Fin 2048) :
    (iblk0 (V5 m ρ) c 10 t : Vec Ideal S16x2048 .f32) (ix2 k j) = (V5 m ρ c main_arg9 : FVec Ideal S16x2048 .f32) (ix2 k j) := by
  obtain ⟨e0, e1⟩ := idx0_10 t
  unfold iblk0
  rw [View.read_apply]
  show V5 m ρ c main_arg9 _ = V5 m ρ c main_arg9 _
  congr 1
  funext a
  apply Fin.ext
  match a with
  | ⟨0, _⟩ => show win0_10.index t (0 : Fin 2) * 16 + 1 * k.val = k.val; rw [e0]; omega
  | ⟨1, _⟩ => show win0_10.index t (1 : Fin 2) * 2048 + 1 * j.val = j.val; rw [e1]; omega

theorem blk0_11_at (c : Dev nD) (t : Fin cfg0.N) (j : Fin 2048) :
    (iblk0 (V5 m ρ) c 11 t : Vec Ideal S2048 .f32) (ix1 j) = (V5 m ρ c main_v17 : FVec Ideal S2048 .f32) (ix1 j) := by
  obtain ⟨e0, e1⟩ := idx0_11 t
  unfold iblk0
  rw [View.read_apply]
  show V5 m ρ c main_v17 _ = V5 m ρ c main_v17 _
  congr 1
  funext a
  apply Fin.ext
  match a with
  | ⟨0, _⟩ => show win0_11.index t (0 : Fin 1) * 2048 + 1 * j.val = j.val; rw [e0]; omega

theorem blk0_12_at (c : Dev nD) (t : Fin cfg0.N) (j : Fin 2048) :
    (iblk0 (V5 m ρ) c 12 t : Vec Ideal S2048 .f32) (ix1 j) = (V5 m ρ c main_v21 : FVec Ideal S2048 .f32) (ix1 j) := by
  obtain ⟨e0, e1⟩ := idx0_12 t
  unfold iblk0
  rw [View.read_apply]
  show V5 m ρ c main_v21 _ = V5 m ρ c main_v21 _
  congr 1
  funext a
  apply Fin.ext
  match a with
  | ⟨0, _⟩ => show win0_12.index t (0 : Fin 1) * 2048 + 1 * j.val = j.val; rw [e0]; omega

/-! ## The reference's `ssm` and `inp` stages of the launch arguments, and each block entry as an entry of those arguments -/

/-- The reference's `ssm` stage of the arguments as launched. -/
abbrev ssmArr (c : Dev nD) : FVec Ideal S16384x2048 .f32 := Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
/-- The reference's `inp` stage of the arguments as launched. -/
abbrev inpArr (c : Dev nD) : FVec Ideal S16384x2048 .f32 := Cert.ReferenceIdeal.Read.val_main_v27 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

section Row
variable (c : Dev nD) (t : Fin cfg0.N)

theorem row_s (p : Fin 256) (hr : 256 * t.val + p.val < 16384) (k : Fin 1024) :
    (iblk0 (V5 m ρ) c 0 t : Vec Ideal S256x1024 .f32) (ix2 p k) = Cert.ReferenceIdeal.Read.val_main_v0 (F := Ideal) (m ((c : Thread nD τ).loc main_arg0)) (ix2 (⟨256 * t.val + p.val, hr⟩ : Fin 16384) k) := by
  rw [blk0_0_at m ρ c t p k hr, Cert.KernelIdeal.HostVals.at_v0]; rfl
theorem row_deter (p : Fin 256) (hr : 256 * t.val + p.val < 16384) (k : Fin 2048) :
    (iblk0 (V5 m ρ) c 1 t : Vec Ideal S256x2048 .f32) (ix2 p k) = (m ((c : Thread nD τ).loc main_arg1)) (ix2 (⟨256 * t.val + p.val, hr⟩ : Fin 16384) k) := by
  rw [blk0_1_at m ρ c t p k hr, (Cert.KernelIdeal.HostVals.at_arg m ρ c).1]
theorem row_action (p : Fin 256) (hr : 256 * t.val + p.val < 16384) (k : Fin 12) :
    (iblk0 (V5 m ρ) c 2 t : Vec Ideal S256x12 .f32) (ix2 p k) = (m ((c : Thread nD τ).loc main_arg2)) (ix2 (⟨256 * t.val + p.val, hr⟩ : Fin 16384) k) := by
  rw [blk0_2_at m ρ c t p k hr, (Cert.KernelIdeal.HostVals.at_arg m ρ c).2.1]
theorem w1s (k j : Fin 1024) :
    (iblk0 (V5 m ρ) c 3 t : Vec Ideal S1024x1024 .bf16) (ix2 k j) = (m ((c : Thread nD τ).loc main_arg3)) (ix2 (⟨k.val, by omega⟩ : Fin 1036) j) := by
  rw [blk0_3_at m ρ c t k j, Cert.KernelIdeal.HostVals.at_v10, truncf_apply]
  exact slice2_axis0_apply 0 _ _ k j _ (Nat.zero_add _).symm
theorem w1a (k : Fin 12) (j : Fin 1024) :
    (iblk0 (V5 m ρ) c 4 t : Vec Ideal S12x1024 .bf16) (ix2 k j) = (m ((c : Thread nD τ).loc main_arg3)) (ix2 (⟨1024 + k.val, by omega⟩ : Fin 1036) j) := by
  rw [blk0_4_at m ρ c t k j, Cert.KernelIdeal.HostVals.at_v11, truncf_apply]
  exact slice2_axis0_apply 1024 _ _ k j _ rfl
theorem b1 (j : Fin 1024) : (iblk0 (V5 m ρ) c 5 t : Vec Ideal S1024 .f32) (ix1 j) = (m ((c : Thread nD τ).loc main_arg4)) (ix1 j) := by
  rw [blk0_5_at m ρ c t j, (Cert.KernelIdeal.HostVals.at_arg m ρ c).2.2.1]
theorem g1 (j : Fin 1024) : (iblk0 (V5 m ρ) c 6 t : Vec Ideal S1024 .f32) (ix1 j) = (m ((c : Thread nD τ).loc main_arg5)) (ix1 j) := by
  rw [blk0_6_at m ρ c t j, (Cert.KernelIdeal.HostVals.at_arg m ρ c).2.2.2.1]
theorem w2 (k : Fin 1024) (q : Fin 2048) : (iblk0 (V5 m ρ) c 7 t : Vec Ideal S1024x2048 .bf16) (ix2 k q) = (m ((c : Thread nD τ).loc main_arg6)) (ix2 k q) := by
  rw [blk0_7_at m ρ c t k q, Cert.KernelIdeal.HostVals.at_v12, truncf_apply]
theorem b2 (q : Fin 2048) : (iblk0 (V5 m ρ) c 8 t : Vec Ideal S2048 .f32) (ix1 q) = (m ((c : Thread nD τ).loc main_arg7)) (ix1 q) := by
  rw [blk0_8_at m ρ c t q, (Cert.KernelIdeal.HostVals.at_arg m ρ c).2.2.2.2.1]
theorem wu (l : Fin 2048) (k : Fin 16) : (iblk0 (V5 m ρ) c 9 t : Vec Ideal S2048x16 .f32) (ix2 l k) = (m ((c : Thread nD τ).loc main_arg8)) (ix2 l k) := by
  rw [blk0_9_at m ρ c t l k, (Cert.KernelIdeal.HostVals.at_arg m ρ c).2.2.2.2.2.1]
theorem wv (k : Fin 16) (q : Fin 2048) : (iblk0 (V5 m ρ) c 10 t : Vec Ideal S16x2048 .f32) (ix2 k q) = (m ((c : Thread nD τ).loc main_arg9)) (ix2 k q) := by
  rw [blk0_10_at m ρ c t k q, (Cert.KernelIdeal.HostVals.at_arg m ρ c).2.2.2.2.2.2.1]
theorem dtRow (q : Fin 2048) :
    (iblk0 (V5 m ρ) c 11 t : Vec Ideal S2048 .f32) (ix1 q) = Cert.ReferenceIdeal.Read.val_main_v34 (F := Ideal) (m ((c : Thread nD τ).loc main_arg11)) (ix2 (0 : Fin 1) q) := by
  rw [blk0_11_at m ρ c t q, Cert.KernelIdeal.HostVals.at_v17, Cert.KernelIdeal.HostVals.dtVec_at, Cert.ReferenceIdeal.Rows.dt_at]
theorem decayRow (q : Fin 2048) :
    (iblk0 (V5 m ρ) c 12 t : Vec Ideal S2048 .f32) (ix1 q) = Cert.ReferenceIdeal.Read.val_main_v39 (F := Ideal) (m ((c : Thread nD τ).loc main_arg10)) (m ((c : Thread nD τ).loc main_arg11)) (ix2 (0 : Fin 1) q) := by
  rw [blk0_12_at m ρ c t q, Cert.KernelIdeal.HostVals.at_v21, Cert.KernelIdeal.HostVals.decayVec_at, Cert.KernelIdeal.HostVals.dtVec_at,
    Cert.ReferenceIdeal.Rows.decay_at, Cert.ReferenceIdeal.Rows.dt_at]

end Row

/-! ## What each point writes back, and the arrays after the region -/

/-- Point `t` writes back, into the first output, its block of the reference's `ssm` stage. -/
theorem flushed13_eq (c : Dev nD) (t : Fin cfg0.N) :
    (dat0 (V5 m ρ) c).flushed 13 t = ((cfg0.win 13).blk t).view.read (Elt Ideal) (ssmArr m c) := by
  show (cfg0.win 13).cut (grid0.coords t) ((dat0 (V5 m ρ) c).after 13 t) = _
  rw [after0_13]
  unfold out0_13
  rw [View.canon_unit_zero hz]
  simp only [View.ld_unit_zero (S := S256x1024) hz, View.ld_unit_zero (S := S256x2048) hz, View.ld_unit_zero (S := S256x12) hz, View.ld_unit_zero (S := S1024x1024) hz, View.ld_unit_zero (S := S12x1024) hz, View.ld_unit_zero (S := S1024x2048) hz, View.ld_unit_zero (S := S2048x16) hz, View.ld_unit_zero (S := S16x2048) hz, View.ld_unit_zero (S := S1024) hz1, View.ld_unit_zero (S := S2048) hz1]
  funext y
  obtain ⟨p, q, rfl⟩ : ∃ (p : Fin 256) (q : Fin 2048), y = ix2 p q := ⟨y 0, y 1, eq_ix2 y⟩
  have hr : 256 * t.val + p.val < 16384 := by have h : t.val < 64 := lt_of_lt_of_eq t.isLt N_0; omega
  obtain ⟨e0, e1⟩ := idx0_13 t
  have he : ((cfg0.win 13).blk t).view.emb (ix2 p q) = ix2 (⟨256 * t.val + p.val, hr⟩ : Fin 16384) q := by
    funext a
    apply Fin.ext
    match a with
    | ⟨0, _⟩ => show win0_13.index t (0 : Fin 2) * 256 + 1 * p.val = 256 * t.val + p.val; rw [e0]; omega
    | ⟨1, _⟩ => show win0_13.index t (1 : Fin 2) * 2048 + 1 * q.val = q.val; rw [e1]; omega
  rw [View.read_apply]
  show k0_pay2 (iblk0 (V5 m ρ) c 1 t : Vec Ideal S256x2048 .f32) (k0_pay4 (iblk0 (V5 m ρ) c 0 t : Vec Ideal S256x1024 .f32) (iblk0 (V5 m ρ) c 2 t : Vec Ideal S256x12 .f32) (iblk0 (V5 m ρ) c 3 t : Vec Ideal S1024x1024 .bf16) (iblk0 (V5 m ρ) c 4 t : Vec Ideal S12x1024 .bf16) (iblk0 (V5 m ρ) c 5 t : Vec Ideal S1024 .f32) (iblk0 (V5 m ρ) c 6 t : Vec Ideal S1024 .f32))
      (iblk0 (V5 m ρ) c 7 t : Vec Ideal S1024x2048 .bf16) (iblk0 (V5 m ρ) c 8 t : Vec Ideal S2048 .f32) (iblk0 (V5 m ρ) c 9 t : Vec Ideal S2048x16 .f32) (iblk0 (V5 m ρ) c 10 t : Vec Ideal S16x2048 .f32) (iblk0 (V5 m ρ) c 11 t : Vec Ideal S2048 .f32) (iblk0 (V5 m ρ) c 12 t : Vec Ideal S2048 .f32) (ix2 p q)
    = ssmArr m c (((cfg0.win 13).blk t).view.emb (ix2 p q))
  rw [he]
  exact Cert.Bridge.RowA.ssm_row (iblk0 (V5 m ρ) c 0 t : Vec Ideal S256x1024 .f32) (iblk0 (V5 m ρ) c 1 t : Vec Ideal S256x2048 .f32) (iblk0 (V5 m ρ) c 2 t : Vec Ideal S256x12 .f32) (iblk0 (V5 m ρ) c 3 t : Vec Ideal S1024x1024 .bf16) (iblk0 (V5 m ρ) c 4 t : Vec Ideal S12x1024 .bf16)
    (iblk0 (V5 m ρ) c 5 t : Vec Ideal S1024 .f32) (iblk0 (V5 m ρ) c 6 t : Vec Ideal S1024 .f32) (iblk0 (V5 m ρ) c 7 t : Vec Ideal S1024x2048 .bf16) (iblk0 (V5 m ρ) c 8 t : Vec Ideal S2048 .f32) (iblk0 (V5 m ρ) c 9 t : Vec Ideal S2048x16 .f32) (iblk0 (V5 m ρ) c 10 t : Vec Ideal S16x2048 .f32)
    (iblk0 (V5 m ρ) c 11 t : Vec Ideal S2048 .f32) (iblk0 (V5 m ρ) c 12 t : Vec Ideal S2048 .f32)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) p (⟨256 * t.val + p.val, hr⟩ : Fin 16384)
    (row_s m ρ c t p hr) (row_action m ρ c t p hr) (w1s m ρ c t) (w1a m ρ c t) (b1 m ρ c t) (g1 m ρ c t) (w2 m ρ c t) (b2 m ρ c t) (row_deter m ρ c t p hr) (wu m ρ c t) (wv m ρ c t) (dtRow m ρ c t) (decayRow m ρ c t) q

/-- Point `t` writes back, into the second output, its block of the reference's `inp` stage. -/
theorem flushed14_eq (c : Dev nD) (t : Fin cfg0.N) :
    (dat0 (V5 m ρ) c).flushed 14 t = ((cfg0.win 14).blk t).view.read (Elt Ideal) (inpArr m c) := by
  show (cfg0.win 14).cut (grid0.coords t) ((dat0 (V5 m ρ) c).after 14 t) = _
  rw [after0_14]
  unfold out0_14
  rw [View.canon_unit_zero hz]
  simp only [View.ld_unit_zero (S := S256x1024) hz, View.ld_unit_zero (S := S256x2048) hz, View.ld_unit_zero (S := S256x12) hz, View.ld_unit_zero (S := S1024x1024) hz, View.ld_unit_zero (S := S12x1024) hz, View.ld_unit_zero (S := S1024x2048) hz, View.ld_unit_zero (S := S2048x16) hz, View.ld_unit_zero (S := S16x2048) hz, View.ld_unit_zero (S := S1024) hz1, View.ld_unit_zero (S := S2048) hz1]
  funext y
  obtain ⟨p, q, rfl⟩ : ∃ (p : Fin 256) (q : Fin 2048), y = ix2 p q := ⟨y 0, y 1, eq_ix2 y⟩
  have hr : 256 * t.val + p.val < 16384 := by have h : t.val < 64 := lt_of_lt_of_eq t.isLt N_0; omega
  obtain ⟨e0, e1⟩ := idx0_14 t
  have he : ((cfg0.win 14).blk t).view.emb (ix2 p q) = ix2 (⟨256 * t.val + p.val, hr⟩ : Fin 16384) q := by
    funext a
    apply Fin.ext
    match a with
    | ⟨0, _⟩ => show win0_14.index t (0 : Fin 2) * 256 + 1 * p.val = 256 * t.val + p.val; rw [e0]; omega
    | ⟨1, _⟩ => show win0_14.index t (1 : Fin 2) * 2048 + 1 * q.val = q.val; rw [e1]; omega
  rw [View.read_apply]
  show k0_pay3 (k0_pay4 (iblk0 (V5 m ρ) c 0 t : Vec Ideal S256x1024 .f32) (iblk0 (V5 m ρ) c 2 t : Vec Ideal S256x12 .f32) (iblk0 (V5 m ρ) c 3 t : Vec Ideal S1024x1024 .bf16) (iblk0 (V5 m ρ) c 4 t : Vec Ideal S12x1024 .bf16) (iblk0 (V5 m ρ) c 5 t : Vec Ideal S1024 .f32) (iblk0 (V5 m ρ) c 6 t : Vec Ideal S1024 .f32))
      (iblk0 (V5 m ρ) c 7 t : Vec Ideal S1024x2048 .bf16) (iblk0 (V5 m ρ) c 8 t : Vec Ideal S2048 .f32) (ix2 p q)
    = inpArr m c (((cfg0.win 14).blk t).view.emb (ix2 p q))
  rw [he]
  exact Cert.Bridge.RowA.inp_row (iblk0 (V5 m ρ) c 0 t : Vec Ideal S256x1024 .f32) (iblk0 (V5 m ρ) c 2 t : Vec Ideal S256x12 .f32) (iblk0 (V5 m ρ) c 3 t : Vec Ideal S1024x1024 .bf16) (iblk0 (V5 m ρ) c 4 t : Vec Ideal S12x1024 .bf16)
    (iblk0 (V5 m ρ) c 5 t : Vec Ideal S1024 .f32) (iblk0 (V5 m ρ) c 6 t : Vec Ideal S1024 .f32) (iblk0 (V5 m ρ) c 7 t : Vec Ideal S1024x2048 .bf16) (iblk0 (V5 m ρ) c 8 t : Vec Ideal S2048 .f32)
    (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) p (⟨256 * t.val + p.val, hr⟩ : Fin 16384)
    (row_s m ρ c t p hr) (row_action m ρ c t p hr) (w1s m ρ c t) (w1a m ρ c t) (b1 m ρ c t) (g1 m ρ c t) (w2 m ρ c t) (b2 m ρ c t) q

/-- An index of an output array is in point `t`'s block iff its row is one of the point's 256 rows. -/
theorem mem_blk13 (t : Fin cfg0.N) (i : S16384x2048.Idx) :
    i ∈ ((cfg0.win 13).blk t).view.set ↔ ∀ a : Fin 2, win0_13.index t a * S256x2048.size a ≤ (i a).val ∧ (i a).val < win0_13.index t a * S256x2048.size a + S256x2048.size a := by
  show i ∈ ((View.whole main_v22_0).slice (win0_13.rect t)).set ↔ _
  rw [View.set_slice_whole, Rect.mem_set_unit]
  exact Iff.rfl
theorem mem_blk14 (t : Fin cfg0.N) (i : S16384x2048.Idx) :
    i ∈ ((cfg0.win 14).blk t).view.set ↔ ∀ a : Fin 2, win0_14.index t a * S256x2048.size a ≤ (i a).val ∧ (i a).val < win0_14.index t a * S256x2048.size a + S256x2048.size a := by
  show i ∈ ((View.whole main_v22_1).slice (win0_14.rect t)).set ↔ _
  rw [View.set_slice_whole, Rect.mem_set_unit]
  exact Iff.rfl

/-- The 64 row blocks tile each output array. -/
theorem cover13 (i : S16384x2048.Idx) : ∃ t : Fin cfg0.N, (cfg0.win 13).flush t = true ∧ i ∈ ((cfg0.win 13).blk t).view.set := by
  have hi0 : (i 0).val < 16384 := (i 0).isLt
  have hi1 : (i 1).val < 2048 := (i 1).isLt
  obtain ⟨t, ht⟩ : ∃ t : Fin cfg0.N, t.val = (i 0).val / 256 := ⟨⟨(i 0).val / 256, lt_of_lt_of_eq (show (i 0).val / 256 < 64 by omega) N_0.symm⟩, rfl⟩
  obtain ⟨e0, e1⟩ := idx0_13 t
  refine ⟨t, flush0_13 t, (mem_blk13 t i).mpr fun a => ?_⟩
  match a with
  | ⟨0, _⟩ => show win0_13.index t (0 : Fin 2) * 256 ≤ (i 0).val ∧ (i 0).val < win0_13.index t (0 : Fin 2) * 256 + 256; rw [e0]; omega
  | ⟨1, _⟩ => show win0_13.index t (1 : Fin 2) * 2048 ≤ (i 1).val ∧ (i 1).val < win0_13.index t (1 : Fin 2) * 2048 + 2048; rw [e1]; omega
theorem cover14 (i : S16384x2048.Idx) : ∃ t : Fin cfg0.N, (cfg0.win 14).flush t = true ∧ i ∈ ((cfg0.win 14).blk t).view.set := by
  have hi0 : (i 0).val < 16384 := (i 0).isLt
  have hi1 : (i 1).val < 2048 := (i 1).isLt
  obtain ⟨t, ht⟩ : ∃ t : Fin cfg0.N, t.val = (i 0).val / 256 := ⟨⟨(i 0).val / 256, lt_of_lt_of_eq (show (i 0).val / 256 < 64 by omega) N_0.symm⟩, rfl⟩
  obtain ⟨e0, e1⟩ := idx0_14 t
  refine ⟨t, flush0_14 t, (mem_blk14 t i).mpr fun a => ?_⟩
  match a with
  | ⟨0, _⟩ => show win0_14.index t (0 : Fin 2) * 256 ≤ (i 0).val ∧ (i 0).val < win0_14.index t (0 : Fin 2) * 256 + 256; rw [e0]; omega
  | ⟨1, _⟩ => show win0_14.index t (1 : Fin 2) * 2048 ≤ (i 1).val ∧ (i 1).val < win0_14.index t (1 : Fin 2) * 2048 + 2048; rw [e1]; omega

/-- After the region the first output array holds the reference's `ssm` stage … -/
theorem final13 (c : Dev nD) : (dat0 (V5 m ρ) c).arrAt 13 cfg0.N = ssmArr m c :=
  (dat0 (V5 m ρ) c).arrAt_eq_of_cover 13 (ssmArr m c) (fun t _ => flushed13_eq m ρ c t) (cover13)
/-- … and the second its `inp` stage. -/
theorem final14 (c : Dev nD) : (dat0 (V5 m ρ) c).arrAt 14 cfg0.N = inpArr m c :=
  (dat0 (V5 m ρ) c).arrAt_eq_of_cover 14 (inpArr m c) (fun t _ => flushed14_eq m ρ c t) (cover14)

end Cert.KernelIdeal.Region0

end
-- ==== Proof.BodyB.lean ====
/-
  The second kernel's body at one grid point, at the ideal instance, read entry by entry.

  A point holds 128 rows. Row `p`: the fused linear map `lin = ssm·Wgc1 + inp·Wgc2 + bgc` of width 4096 (its left half
  is the gate's pre-activation, its right half the candidate's); `out = logistic(gate) · tanh(cand) + (1 − logistic(gate)) · deter`;
  and the root-mean-square scaling `out · rsqrt(mean(out²) + ε) · gn`.
-/
import proofs.«157429_j38328288149699_2_alg».proof.Proof.Gen.KernelIdeal.Skeleton
import proofs.«157429_j38328288149699_2_alg».proof.Proof.LibPlainDot
import proofs.«157429_j38328288149699_2_alg».proof.Proof.LibKeepdims
import proofs.«157429_j38328288149699_2_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyB

open Cert.KernelIdeal Cert.KernelIdeal.Gen Idealize.ShloMosaic Idealize.ShloMosaic.ValueIdx
open scoped BigOperators
open Cert.Consts (one eps c2048)

/-- The fused linear map on a block: two products and the bias row, width 4096. -/
def fusedLin (v0 v2 : FVec Ideal S128x2048 .bf16) (v5 v8 : FVec Ideal S2048x4096 .bf16) (v12 : FVec Ideal S4096 .f32) :
    FVec Ideal S128x4096 .f32 :=
  addf (addf
      (matmul dot_S128x2048_S2048x4096_S128x4096_1_0_0_1_n_n none (shapeCast S128x2048 v0 shapeCasts_S128x2048_S128x2048)
        (shapeCast S2048x4096 v5 shapeCasts_S2048x4096_S2048x4096) (constant S128x4096 .f32 0x00000000#32))
      (matmul dot_S128x2048_S2048x4096_S128x4096_1_0_0_1_n_n none (shapeCast S128x2048 v2 shapeCasts_S128x2048_S128x2048)
        (shapeCast S2048x4096 v8 shapeCasts_S2048x4096_S2048x4096) (constant S128x4096 .f32 0x00000000#32)))
    (broadcastTo S128x4096 (shapeCast S1x4096 (shapeCast S4096 v12 shapeCasts_S4096_S4096) shapeCasts_S4096_S1x4096) broadcasts_S1x4096_S128x4096)

/-- The gated mix of candidate and previous state. -/
def gated (lin : FVec Ideal S128x4096 .f32) (v4 : FVec Ideal S128x2048 .f32) : FVec Ideal S128x2048 .f32 :=
  addf (mulf (logistic (extractStridedSlice S128x2048 ![0, 0] lin slices_S128x4096_o0_0_S128x2048))
      (tanh (extractStridedSlice S128x2048 ![0, 2048] lin slices_S128x4096_o0_2048_S128x2048)))
    (mulf (subf (broadcast S128x2048 (Scalar.ofBits .f32 0x3F800000#32))
      (logistic (extractStridedSlice S128x2048 ![0, 0] lin slices_S128x4096_o0_0_S128x2048))) v4)

/-- The root-mean-square scaling of a block's rows, with the gain row. -/
def rmsScale (x : FVec Ideal S128x2048 .f32) (g : FVec Ideal S2048 .f32) : FVec Ideal S128x2048 .f32 :=
  mulf (mulf x (broadcastTo S128x2048
      (rsqrt (addf (divf (shapeCast S128x1 (multiReduction .add [1] S128 (mulf x x) 0x00000000#32 reduces_S128x2048_S128 (.inl rfl) rfl) shapeCasts_S128_S128x1)
          (broadcast S128x1 (Scalar.ofBits .f32 0x45000000#32))) (broadcast S128x1 (Scalar.ofBits .f32 0x38D1B717#32))))
      broadcasts_S128x1_S128x2048))
    (broadcastTo S128x2048 (shapeCast S1x2048 g shapeCasts_S2048_S1x2048) broadcasts_S1x2048_S128x2048)

/-- The body's stored value is the scaled gated mix of the fused linear map. -/
theorem out_eq (v0 v2 : FVec Ideal S128x2048 .bf16) (v4 : FVec Ideal S128x2048 .f32) (v5 v8 : FVec Ideal S2048x4096 .bf16)
    (v12 : FVec Ideal S4096 .f32) (v36 : FVec Ideal S2048 .f32) :
    k1_pay1 v0 v2 v4 v5 v8 v12 v36 = rmsScale (gated (fusedLin v0 v2 v5 v8 v12) v4) v36 := rfl

/-- The fused linear map at `(p, q)`. -/
theorem fusedLin_at (v0 v2 : FVec Ideal S128x2048 .bf16) (v5 v8 : FVec Ideal S2048x4096 .bf16) (v12 : FVec Ideal S4096 .f32)
    (p : Fin 128) (q : Fin 4096) :
    fusedLin v0 v2 v5 v8 v12 (ix2 p q) =
      (∑ k : Fin 2048, v0 (ix2 p k) * v5 (ix2 k q) + ∑ k : Fin 2048, v2 (ix2 p k) * v8 (ix2 k q)) + v12 (ix1 q) := by
  unfold fusedLin
  rw [addf_apply, addf_apply]
  refine congrArg₂ (· + ·) (congrArg₂ (· + ·) ?_ ?_) ?_
  · refine (Cert.Proof.PlainDot.matmul_zero_plain_apply' (M := 128) (K := 2048) (N := 4096) dot_S128x2048_S2048x4096_S128x4096_1_0_0_1_n_n_wf none _ _ p q).trans ?_
    refine Finset.sum_congr rfl fun k _ => ?_
    rw [shapeCast_self, shapeCast_self]
  · refine (Cert.Proof.PlainDot.matmul_zero_plain_apply' (M := 128) (K := 2048) (N := 4096) dot_S128x2048_S2048x4096_S128x4096_1_0_0_1_n_n_wf none _ _ p q).trans ?_
    refine Finset.sum_congr rfl fun k _ => ?_
    rw [shapeCast_self, shapeCast_self]
  · rw [broadcastTo_1b_ab_apply, shapeCast_a_1a_apply, shapeCast_self]

/-- The gated mix at `(p, q)`: the gate reads column `q` of the linear map, the candidate column `2048 + q`. -/
theorem gated_at (lin : FVec Ideal S128x4096 .f32) (v4 : FVec Ideal S128x2048 .f32) (p : Fin 128) (q : Fin 2048)
    (qg qc : Fin 4096) (hg : qg.val = 0 + q.val) (hc : qc.val = 2048 + q.val) :
    gated lin v4 (ix2 p q) =
      Ideal.logistic (lin (ix2 p qg)) * Ideal.tanh (lin (ix2 p qc)) + (one - Ideal.logistic (lin (ix2 p qg))) * v4 (ix2 p q) := by
  unfold gated
  rw [addf_apply, mulf_apply, mulf_apply, subf_apply]
  have eg : extractStridedSlice S128x2048 ![0, 0] lin slices_S128x4096_o0_0_S128x2048 (ix2 p q) = lin (ix2 p qg) :=
    slice2_axis1_apply 0 lin slices_S128x4096_o0_0_S128x2048 p q qg hg
  have ec : extractStridedSlice S128x2048 ![0, 2048] lin slices_S128x4096_o0_2048_S128x2048 (ix2 p q) = lin (ix2 p qc) :=
    slice2_axis1_apply 2048 lin slices_S128x4096_o0_2048_S128x2048 p q qc hc
  show Ideal.logistic (extractStridedSlice S128x2048 ![0, 0] lin slices_S128x4096_o0_0_S128x2048 (ix2 p q))
      * Ideal.tanh (extractStridedSlice S128x2048 ![0, 2048] lin slices_S128x4096_o0_2048_S128x2048 (ix2 p q))
      + (one - Ideal.logistic (extractStridedSlice S128x2048 ![0, 0] lin slices_S128x4096_o0_0_S128x2048 (ix2 p q))) * v4 (ix2 p q) = _
  rw [eg, ec]

/-- The scaled block at `(p, j)`. -/
theorem rmsScale_at (x : FVec Ideal S128x2048 .f32) (g : FVec Ideal S2048 .f32) (p : Fin 128) (j : Fin 2048) :
    rmsScale x g (ix2 p j) =
      x (ix2 p j) * Ideal.rsqrt (Ideal.div (∑ k : Fin 2048, x (ix2 p k) * x (ix2 p k)) c2048 + eps) * g (ix1 j) := by
  unfold rmsScale
  rw [mulf_apply, mulf_apply, broadcastTo_1b_ab_apply, shapeCast_a_1a_apply, Cert.LibKeepdims.broadcastTo_a1_ab_at]
  refine congrArg₂ (· * ·) (congrArg₂ (· * ·) rfl ?_) rfl
  show Ideal.rsqrt (Ideal.div (shapeCast S128x1 _ shapeCasts_S128_S128x1 (ix2 p (0 : Fin 1))) c2048 + eps) = _
  rw [Cert.LibKeepdims.columnOfVector_cast_at]
  refine congrArg (fun z => Ideal.rsqrt (Ideal.div z c2048 + eps)) ?_
  exact Cert.LibKeepdims.laneSum_at (mulf x x) 0x00000000#32 reduces_S128x2048_S128 (.inl rfl) rfl p

end Cert.KernelIdeal.BodyB

end
-- ==== Proof.RowB.lean ====
/-
  One row of the second kernel's block against one row of the reference.

  Let row `p` of a point's blocks be row `r` of the batch: the `ssm`, `inp` and `deter` blocks at `(p, k)` hold the
  reference's `ssm` stage, `inp` stage and `deter` at `(r, k)`; the fused weight blocks hold `Wg` in their left halves
  and `Wc` in their right halves (upper 2048 rows in the first, lower in the second), the fused bias `bg` then `bc`.
  Then the body's stored value at `(p, q)` is the reference's result at `(r, q)`. Column `q` of the fused map is the
  gate's pre-activation, column `2048 + q` the candidate's; each is a sum over the joined 4096 inputs cut in two.
-/
import proofs.«157429_j38328288149699_2_alg».proof.Proof.BodyB
import proofs.«157429_j38328288149699_2_alg».proof.Proof.RefRows

noncomputable section

namespace Cert.Bridge.RowB

open Cert.KernelIdeal Cert.KernelIdeal.Gen Idealize.ShloMosaic Idealize.ShloMosaic.ValueIdx
open Cert.KernelIdeal.BodyB
open scoped BigOperators

variable (v0 v2 : FVec Ideal S128x2048 .bf16) (v4 : FVec Ideal S128x2048 .f32) (v5 v8 : FVec Ideal S2048x4096 .bf16)
  (v12 : FVec Ideal S4096 .f32) (v36 : FVec Ideal S2048 .f32)
  (x0 : (⟨Cert.ReferenceIdeal.S16384x32x32, .f32⟩ : BufTy).Contents (Elt Ideal)) (x1 : (⟨Cert.ReferenceIdeal.S16384x2048, .f32⟩ : BufTy).Contents (Elt Ideal)) (x2 : (⟨Cert.ReferenceIdeal.S16384x12, .f32⟩ : BufTy).Contents (Elt Ideal))
  (x3 : (⟨Cert.ReferenceIdeal.S1036x1024, .f32⟩ : BufTy).Contents (Elt Ideal)) (x4 x5 : (⟨Cert.ReferenceIdeal.S1024, .f32⟩ : BufTy).Contents (Elt Ideal)) (x6 : (⟨Cert.ReferenceIdeal.S1024x2048, .f32⟩ : BufTy).Contents (Elt Ideal)) (x7 : (⟨Cert.ReferenceIdeal.S2048, .f32⟩ : BufTy).Contents (Elt Ideal))
  (x8 : (⟨Cert.ReferenceIdeal.S2048x16, .f32⟩ : BufTy).Contents (Elt Ideal)) (x9 : (⟨Cert.ReferenceIdeal.S16x2048, .f32⟩ : BufTy).Contents (Elt Ideal)) (x10 x11 : (⟨Cert.ReferenceIdeal.S2048, .f32⟩ : BufTy).Contents (Elt Ideal)) (x12 : (⟨Cert.ReferenceIdeal.S4096x2048, .f32⟩ : BufTy).Contents (Elt Ideal))
  (x13 : (⟨Cert.ReferenceIdeal.S2048, .f32⟩ : BufTy).Contents (Elt Ideal)) (x14 : (⟨Cert.ReferenceIdeal.S4096x2048, .f32⟩ : BufTy).Contents (Elt Ideal)) (x15 x16 : (⟨Cert.ReferenceIdeal.S2048, .f32⟩ : BufTy).Contents (Elt Ideal))
  (p : Fin 128) (r : Fin 16384)

/-- The stored value of row `p` is the reference's result at row `r`. -/
theorem out_row
    (h0 : ∀ k : Fin 2048, v0 (ix2 p k) = Cert.ReferenceIdeal.Read.val_main_v44 (F := Ideal) x0 x1 x2 x3 x4 x5 x6 x7 x8 x9 x10 x11 (ix2 r k))
    (h2 : ∀ k : Fin 2048, v2 (ix2 p k) = Cert.ReferenceIdeal.Read.val_main_v27 (F := Ideal) x0 x2 x3 x4 x5 x6 x7 (ix2 r k))
    (h4 : ∀ q : Fin 2048, v4 (ix2 p q) = x1 (ix2 r q))
    (h5g : ∀ (k q : Fin 2048), v5 (ix2 k (⟨q.val, by omega⟩ : Fin 4096)) = x12 (ix2 (⟨k.val, by omega⟩ : Fin 4096) q))
    (h5c : ∀ (k q : Fin 2048), v5 (ix2 k (⟨2048 + q.val, by omega⟩ : Fin 4096)) = x14 (ix2 (⟨k.val, by omega⟩ : Fin 4096) q))
    (h8g : ∀ (k q : Fin 2048), v8 (ix2 k (⟨q.val, by omega⟩ : Fin 4096)) = x12 (ix2 (⟨2048 + k.val, by omega⟩ : Fin 4096) q))
    (h8c : ∀ (k q : Fin 2048), v8 (ix2 k (⟨2048 + q.val, by omega⟩ : Fin 4096)) = x14 (ix2 (⟨2048 + k.val, by omega⟩ : Fin 4096) q))
    (h12g : ∀ q : Fin 2048, v12 (ix1 (⟨q.val, by omega⟩ : Fin 4096)) = x13 (ix1 q))
    (h12c : ∀ q : Fin 2048, v12 (ix1 (⟨2048 + q.val, by omega⟩ : Fin 4096)) = x15 (ix1 q))
    (h36 : ∀ q : Fin 2048, v36 (ix1 q) = x16 (ix1 q)) (q : Fin 2048) :
    k1_pay1 (F := Ideal) v0 v2 v4 v5 v8 v12 v36 (ix2 p q) = Cert.ReferenceIdeal.Read.val_main_v78 (F := Ideal) x0 x1 x2 x3 x4 x5 x6 x7 x8 x9 x10 x11 x12 x13 x14 x15 x16 (ix2 r q) := by
  have hg : ∀ q : Fin 2048, fusedLin v0 v2 v5 v8 v12 (ix2 p (⟨q.val, by omega⟩ : Fin 4096)) = Cert.ReferenceIdeal.Read.val_main_v49 (F := Ideal) x0 x1 x2 x3 x4 x5 x6 x7 x8 x9 x10 x11 x12 x13 (ix2 r q) := fun q => by
    rw [fusedLin_at, Cert.ReferenceIdeal.Rows.gateLin_at]
    exact congrArg₂ (· + ·) (congrArg₂ (· + ·) (Finset.sum_congr rfl fun k _ => congrArg₂ (· * ·) (h0 k) (h5g k q))
      (Finset.sum_congr rfl fun k _ => congrArg₂ (· * ·) (h2 k) (h8g k q))) (h12g q)
  have hc : ∀ q : Fin 2048, fusedLin v0 v2 v5 v8 v12 (ix2 p (⟨2048 + q.val, by omega⟩ : Fin 4096)) = Cert.ReferenceIdeal.Read.val_main_v59 (F := Ideal) x0 x1 x2 x3 x4 x5 x6 x7 x8 x9 x10 x11 x14 x15 (ix2 r q) := fun q => by
    rw [fusedLin_at, Cert.ReferenceIdeal.Rows.candLin_at]
    exact congrArg₂ (· + ·) (congrArg₂ (· + ·) (Finset.sum_congr rfl fun k _ => congrArg₂ (· * ·) (h0 k) (h5c k q))
      (Finset.sum_congr rfl fun k _ => congrArg₂ (· * ·) (h2 k) (h8c k q))) (h12c q)
  have hmix : ∀ q : Fin 2048, gated (fusedLin v0 v2 v5 v8 v12) v4 (ix2 p q) = Cert.ReferenceIdeal.Read.val_main_v65 (F := Ideal) x0 x1 x2 x3 x4 x5 x6 x7 x8 x9 x10 x11 x12 x13 x14 x15 (ix2 r q) := fun q => by
    rw [gated_at (fusedLin v0 v2 v5 v8 v12) v4 p q (⟨q.val, by omega⟩ : Fin 4096) (⟨2048 + q.val, by omega⟩ : Fin 4096) (Nat.zero_add _).symm rfl,
      hg q, hc q, h4 q, Cert.ReferenceIdeal.Rows.mix_at]
  rw [out_eq, rmsScale_at, Cert.ReferenceIdeal.Rows.out_at]
  refine congrArg₂ (· * ·) (congrArg₂ (· * ·) (hmix q) ?_) (h36 q)
  refine congrArg (fun z => Ideal.rsqrt (Ideal.div z Cert.Consts.c2048 + Cert.Consts.eps)) (Finset.sum_congr rfl fun k _ => ?_)
  rw [hmix k]

end Cert.Bridge.RowB

end
-- ==== Proof.Region1.lean ====
/-
  The second kernel's region: from blocks to the result array.

  At its entry the two arrays the first kernel wrote hold the reference's `ssm` and `inp` stages of the launch
  arguments; `deter`, the fused weights, the fused bias and the gain are as the host left them. Grid point `t` of 128
  handles rows `128 t … 128 t + 127`. What it writes back is its block of the reference's RESULT of the launch
  arguments, and the 128 blocks tile the result array, which therefore ends holding the reference's result.
-/
import proofs.«157429_j38328288149699_2_alg».proof.Proof.Gen.KernelIdeal.Frame
import proofs.«157429_j38328288149699_2_alg».proof.Proof.HostVals
import proofs.«157429_j38328288149699_2_alg».proof.Proof.Region0
import proofs.«157429_j38328288149699_2_alg».proof.Proof.RowB
import proofs.«157429_j38328288149699_2_alg».proof.Proof.Layout
import Idealize.ShloMosaic.Lib.Pipeline.Value
import Idealize.ShloMosaic.Lib.ValueLayout

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Region0 (hz hz1 ssmArr inpArr)

variable (m : (ℓ : Loc nD τ sig) → Buf (Elt Ideal) ℓ) (ρ : Dev nD → PrngReg)

/-! ## The region's entry contents -/

theorem entry_ssm (c : Dev nD) : (V6 m ρ c main_v22_0 : FVec Ideal S16384x2048 .bf16) = ssmArr m c :=
  (W6_arr m ρ c 13).trans (Cert.KernelIdeal.Region0.final13 m ρ c)
theorem entry_inp (c : Dev nD) : (V6 m ρ c main_v22_1 : FVec Ideal S16384x2048 .bf16) = inpArr m c :=
  (W6_arr m ρ c 14).trans (Cert.KernelIdeal.Region0.final14 m ρ c)
theorem entry_deter (c : Dev nD) : V6 m ρ c main_arg1 = m ((c : Thread nD τ).loc main_arg1) :=
  ((W6_arr m ρ c 1).trans (((dat0 (V5 m ρ) c).arrAt_in 1 rfl _).trans (A_eq0 (V5 m ρ) c 1))).trans (Cert.KernelIdeal.HostVals.at_arg m ρ c).1
theorem entry_wgc1 (c : Dev nD) : V6 m ρ c main_v13 = V5 m ρ c main_v13 := W6_of_ne m ρ c main_v13 (by decide)
theorem entry_wgc2 (c : Dev nD) : V6 m ρ c main_v14 = V5 m ρ c main_v14 := W6_of_ne m ρ c main_v14 (by decide)
theorem entry_bgc (c : Dev nD) : V6 m ρ c main_v9 = V5 m ρ c main_v9 := W6_of_ne m ρ c main_v9 (by decide)
theorem entry_gn (c : Dev nD) : V6 m ρ c main_arg16 = m ((c : Thread nD τ).loc main_arg16) :=
  (W6_of_ne m ρ c main_arg16 (by decide)).trans (Cert.KernelIdeal.HostVals.at_arg m ρ c).2.2.2.2.2.2.2

/-! ## The printed index maps over the grid -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 1) = 0 ∧ True :=
  (by decide +kernel : ∀ t : Fin grid1.N, _)
theorem idx1_6 : ∀ t : Fin cfg1.N, win1_6.index t (0 : Fin 1) = 0 ∧ True :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)

/-! ## Each input block read at an entry -/

theorem blk1_0_at (c : Dev nD) (t : Fin cfg1.N) (p : Fin 128) (k : Fin 2048) (hr : 128 * t.val + p.val < 16384) :
    (iblk1 (V6 m ρ) c 0 t : Vec Ideal S128x2048 .bf16) (ix2 p k) = (V6 m ρ c main_v22_0 : FVec Ideal S16384x2048 .bf16) (ix2 (⟨128 * t.val + p.val, hr⟩ : Fin 16384) k) := by
  obtain ⟨e0, e1⟩ := idx1_0 t
  unfold iblk1
  rw [View.read_apply]
  show V6 m ρ c main_v22_0 _ = V6 m ρ c main_v22_0 _
  congr 1
  funext a
  apply Fin.ext
  match a with
  | ⟨0, _⟩ => show win1_0.index t (0 : Fin 2) * 128 + 1 * p.val = 128 * t.val + p.val; rw [e0]; omega
  | ⟨1, _⟩ => show win1_0.index t (1 : Fin 2) * 2048 + 1 * k.val = k.val; rw [e1]; omega

theorem blk1_1_at (c : Dev nD) (t : Fin cfg1.N) (p : Fin 128) (k : Fin 2048) (hr : 128 * t.val + p.val < 16384) :
    (iblk1 (V6 m ρ) c 1 t : Vec Ideal S128x2048 .bf16) (ix2 p k) = (V6 m ρ c main_v22_1 : FVec Ideal S16384x2048 .bf16) (ix2 (⟨128 * t.val + p.val, hr⟩ : Fin 16384) k) := by
  obtain ⟨e0, e1⟩ := idx1_1 t
  unfold iblk1
  rw [View.read_apply]
  show V6 m ρ c main_v22_1 _ = V6 m ρ c main_v22_1 _
  congr 1
  funext a
  apply Fin.ext
  match a with
  | ⟨0, _⟩ => show win1_1.index t (0 : Fin 2) * 128 + 1 * p.val = 128 * t.val + p.val; rw [e0]; omega
  | ⟨1, _⟩ => show win1_1.index t (1 : Fin 2) * 2048 + 1 * k.val = k.val; rw [e1]; omega

theorem blk1_2_at (c : Dev nD) (t : Fin cfg1.N) (p : Fin 128) (k : Fin 2048) (hr : 128 * t.val + p.val < 16384) :
    (iblk1 (V6 m ρ) c 2 t : Vec Ideal S128x2048 .f32) (ix2 p k) = (V6 m ρ c main_arg1 : FVec Ideal S16384x2048 .f32) (ix2 (⟨128 * t.val + p.val, hr⟩ : Fin 16384) k) := by
  obtain ⟨e0, e1⟩ := idx1_2 t
  unfold iblk1
  rw [View.read_apply]
  show V6 m ρ c main_arg1 _ = V6 m ρ c main_arg1 _
  congr 1
  funext a
  apply Fin.ext
  match a with
  | ⟨0, _⟩ => show win1_2.index t (0 : Fin 2) * 128 + 1 * p.val = 128 * t.val + p.val; rw [e0]; omega
  | ⟨1, _⟩ => show win1_2.index t (1 : Fin 2) * 2048 + 1 * k.val = k.val; rw [e1]; omega

theorem blk1_3_at (c : Dev nD) (t : Fin cfg1.N) (k : Fin 2048) (j : Fin 4096) :
    (iblk1 (V6 m ρ) c 3 t : Vec Ideal S2048x4096 .bf16) (ix2 k j) = (V6 m ρ c main_v13 : FVec Ideal S2048x4096 .bf16) (ix2 k j) := by
  obtain ⟨e0, e1⟩ := idx1_3 t
  unfold iblk1
  rw [View.read_apply]
  show V6 m ρ c main_v13 _ = V6 m ρ c main_v13 _
  congr 1
  funext a
  apply Fin.ext
  match a with
  | ⟨0, _⟩ => show win1_3.index t (0 : Fin 2) * 2048 + 1 * k.val = k.val; rw [e0]; omega
  | ⟨1, _⟩ => show win1_3.index t (1 : Fin 2) * 4096 + 1 * j.val = j.val; rw [e1]; omega

theorem blk1_4_at (c : Dev nD) (t : Fin cfg1.N) (k : Fin 2048) (j : Fin 4096) :
    (iblk1 (V6 m ρ) c 4 t : Vec Ideal S2048x4096 .bf16) (ix2 k j) = (V6 m ρ c main_v14 : FVec Ideal S2048x4096 .bf16) (ix2 k j) := by
  obtain ⟨e0, e1⟩ := idx1_4 t
  unfold iblk1
  rw [View.read_apply]
  show V6 m ρ c main_v14 _ = V6 m ρ c main_v14 _
  congr 1
  funext a
  apply Fin.ext
  match a with
  | ⟨0, _⟩ => show win1_4.index t (0 : Fin 2) * 2048 + 1 * k.val = k.val; rw [e0]; omega
  | ⟨1, _⟩ => show win1_4.index t (1 : Fin 2) * 4096 + 1 * j.val = j.val; rw [e1]; omega

theorem blk1_5_at (c : Dev nD) (t : Fin cfg1.N) (j : Fin 4096) :
    (iblk1 (V6 m ρ) c 5 t : Vec Ideal S4096 .f32) (ix1 j) = (V6 m ρ c main_v9 : FVec Ideal S4096 .f32) (ix1 j) := by
  obtain ⟨e0, e1⟩ := idx1_5 t
  unfold iblk1
  rw [View.read_apply]
  show V6 m ρ c main_v9 _ = V6 m ρ c main_v9 _
  congr 1
  funext a
  apply Fin.ext
  match a with
  | ⟨0, _⟩ => show win1_5.index t (0 : Fin 1) * 4096 + 1 * j.val = j.val; rw [e0]; omega

theorem blk1_6_at (c : Dev nD) (t : Fin cfg1.N) (j : Fin 2048) :
    (iblk1 (V6 m ρ) c 6 t : Vec Ideal S2048 .f32) (ix1 j) = (V6 m ρ c main_arg16 : FVec Ideal S2048 .f32) (ix1 j) := by
  obtain ⟨e0, e1⟩ := idx1_6 t
  unfold iblk1
  rw [View.read_apply]
  show V6 m ρ c main_arg16 _ = V6 m ρ c main_arg16 _
  congr 1
  funext a
  apply Fin.ext
  match a with
  | ⟨0, _⟩ => show win1_6.index t (0 : Fin 1) * 2048 + 1 * j.val = j.val; rw [e0]; omega

/-! ## The reference's result of the launch arguments, and each block entry as an entry of those arguments -/

/-- The reference's result of the arguments as launched. -/
abbrev outArr (c : Dev nD) : FVec Ideal S16384x2048 .f32 := Cert.ReferenceIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

section Row
variable (c : Dev nD) (t : Fin cfg1.N)

theorem row_ssm (p : Fin 128) (hr : 128 * t.val + p.val < 16384) (k : Fin 2048) :
    (iblk1 (V6 m ρ) c 0 t : Vec Ideal S128x2048 .bf16) (ix2 p k) = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 (⟨128 * t.val + p.val, hr⟩ : Fin 16384) k) := by
  rw [blk1_0_at m ρ c t p k hr, entry_ssm]
theorem row_inp (p : Fin 128) (hr : 128 * t.val + p.val < 16384) (k : Fin 2048) :
    (iblk1 (V6 m ρ) c 1 t : Vec Ideal S128x2048 .bf16) (ix2 p k) = Cert.ReferenceIdeal.Read.val_main_v27 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (⟨128 * t.val + p.val, hr⟩ : Fin 16384) k) := by
  rw [blk1_1_at m ρ c t p k hr, entry_inp]
theorem row_deter (p : Fin 128) (hr : 128 * t.val + p.val < 16384) (k : Fin 2048) :
    (iblk1 (V6 m ρ) c 2 t : Vec Ideal S128x2048 .f32) (ix2 p k) = (m ((c : Thread nD τ).loc main_arg1)) (ix2 (⟨128 * t.val + p.val, hr⟩ : Fin 16384) k) := by
  rw [blk1_2_at m ρ c t p k hr, entry_deter]
theorem wg1 (k q : Fin 2048) :
    (iblk1 (V6 m ρ) c 3 t : Vec Ideal S2048x4096 .bf16) (ix2 k (⟨q.val, by omega⟩ : Fin 4096)) = (m ((c : Thread nD τ).loc main_arg12)) (ix2 (⟨k.val, by omega⟩ : Fin 4096) q) := by
  rw [blk1_3_at m ρ c t k _, entry_wgc1, Cert.KernelIdeal.HostVals.at_v13, truncf_apply]
  refine (Cert.Layout.concat_cols_left _ _ concatenates_S2048x2048_S2048x2048_S2048x4096_d1 k _ q rfl).trans ?_
  exact slice2_axis0_apply 0 _ _ k q _ (Nat.zero_add _).symm
theorem wc1 (k q : Fin 2048) :
    (iblk1 (V6 m ρ) c 3 t : Vec Ideal S2048x4096 .bf16) (ix2 k (⟨2048 + q.val, by omega⟩ : Fin 4096)) = (m ((c : Thread nD τ).loc main_arg14)) (ix2 (⟨k.val, by omega⟩ : Fin 4096) q) := by
  rw [blk1_3_at m ρ c t k _, entry_wgc1, Cert.KernelIdeal.HostVals.at_v13, truncf_apply]
  refine (Cert.Layout.concat_cols_right _ _ concatenates_S2048x2048_S2048x2048_S2048x4096_d1 k _ q (by show q.val + 2048 = 2048 + q.val; omega)).trans ?_
  exact slice2_axis0_apply 0 _ _ k q _ (Nat.zero_add _).symm
theorem wg2 (k q : Fin 2048) :
    (iblk1 (V6 m ρ) c 4 t : Vec Ideal S2048x4096 .bf16) (ix2 k (⟨q.val, by omega⟩ : Fin 4096)) = (m ((c : Thread nD τ).loc main_arg12)) (ix2 (⟨2048 + k.val, by omega⟩ : Fin 4096) q) := by
  rw [blk1_4_at m ρ c t k _, entry_wgc2, Cert.KernelIdeal.HostVals.at_v14, truncf_apply]
  refine (Cert.Layout.concat_cols_left _ _ concatenates_S2048x2048_S2048x2048_S2048x4096_d1 k _ q rfl).trans ?_
  exact slice2_axis0_apply 2048 _ _ k q _ rfl
theorem wc2 (k q : Fin 2048) :
    (iblk1 (V6 m ρ) c 4 t : Vec Ideal S2048x4096 .bf16) (ix2 k (⟨2048 + q.val, by omega⟩ : Fin 4096)) = (m ((c : Thread nD τ).loc main_arg14)) (ix2 (⟨2048 + k.val, by omega⟩ : Fin 4096) q) := by
  rw [blk1_4_at m ρ c t k _, entry_wgc2, Cert.KernelIdeal.HostVals.at_v14, truncf_apply]
  refine (Cert.Layout.concat_cols_right _ _ concatenates_S2048x2048_S2048x2048_S2048x4096_d1 k _ q (by show q.val + 2048 = 2048 + q.val; omega)).trans ?_
  exact slice2_axis0_apply 2048 _ _ k q _ rfl
theorem bgRow (q : Fin 2048) :
    (iblk1 (V6 m ρ) c 5 t : Vec Ideal S4096 .f32) (ix1 (⟨q.val, by omega⟩ : Fin 4096)) = (m ((c : Thread nD τ).loc main_arg13)) (ix1 q) := by
  rw [blk1_5_at m ρ c t _, entry_bgc, Cert.KernelIdeal.HostVals.at_v9]
  exact Cert.Layout.concat_vec_left _ _ concatenates_S2048_S2048_S4096_d0 _ q rfl
theorem bcRow (q : Fin 2048) :
    (iblk1 (V6 m ρ) c 5 t : Vec Ideal S4096 .f32) (ix1 (⟨2048 + q.val, by omega⟩ : Fin 4096)) = (m ((c : Thread nD τ).loc main_arg15)) (ix1 q) := by
  rw [blk1_5_at m ρ c t _, entry_bgc, Cert.KernelIdeal.HostVals.at_v9]
  exact Cert.Layout.concat_vec_right _ _ concatenates_S2048_S2048_S4096_d0 _ q (by show q.val + 2048 = 2048 + q.val; omega)
theorem gnRow (q : Fin 2048) : (iblk1 (V6 m ρ) c 6 t : Vec Ideal S2048 .f32) (ix1 q) = (m ((c : Thread nD τ).loc main_arg16)) (ix1 q) := by
  rw [blk1_6_at m ρ c t q, entry_gn]

end Row

/-! ## What each point writes back, and the result array after the region -/

/-- Point `t` writes back its block of the reference's result. -/
theorem flushed7_eq (c : Dev nD) (t : Fin cfg1.N) :
    (dat1 (V6 m ρ) c).flushed 7 t = ((cfg1.win 7).blk t).view.read (Elt Ideal) (outArr m c) := by
  show (cfg1.win 7).cut (grid1.coords t) ((dat1 (V6 m ρ) c).after 7 t) = _
  rw [after1_7]
  unfold out1_7
  rw [View.canon_unit_zero hz]
  simp only [View.ld_unit_zero (S := S128x2048) hz, View.ld_unit_zero (S := S2048x4096) hz, View.ld_unit_zero (S := S4096) hz1, View.ld_unit_zero (S := S2048) hz1]
  funext y
  obtain ⟨p, q, rfl⟩ : ∃ (p : Fin 128) (q : Fin 2048), y = ix2 p q := ⟨y 0, y 1, eq_ix2 y⟩
  have hr : 128 * t.val + p.val < 16384 := by have h : t.val < 128 := lt_of_lt_of_eq t.isLt N_1; omega
  obtain ⟨e0, e1⟩ := idx1_7 t
  have he : ((cfg1.win 7).blk t).view.emb (ix2 p q) = ix2 (⟨128 * t.val + p.val, hr⟩ : Fin 16384) q := by
    funext a
    apply Fin.ext
    match a with
    | ⟨0, _⟩ => show win1_7.index t (0 : Fin 2) * 128 + 1 * p.val = 128 * t.val + p.val; rw [e0]; omega
    | ⟨1, _⟩ => show win1_7.index t (1 : Fin 2) * 2048 + 1 * q.val = q.val; rw [e1]; omega
  rw [View.read_apply]
  show k1_pay1 (iblk1 (V6 m ρ) c 0 t : Vec Ideal S128x2048 .bf16) (iblk1 (V6 m ρ) c 1 t : Vec Ideal S128x2048 .bf16) (iblk1 (V6 m ρ) c 2 t : Vec Ideal S128x2048 .f32) (iblk1 (V6 m ρ) c 3 t : Vec Ideal S2048x4096 .bf16) (iblk1 (V6 m ρ) c 4 t : Vec Ideal S2048x4096 .bf16) (iblk1 (V6 m ρ) c 5 t : Vec Ideal S4096 .f32) (iblk1 (V6 m ρ) c 6 t : Vec Ideal S2048 .f32) (ix2 p q)
    = outArr m c (((cfg1.win 7).blk t).view.emb (ix2 p q))
  rw [he]
  exact Cert.Bridge.RowB.out_row (iblk1 (V6 m ρ) c 0 t : Vec Ideal S128x2048 .bf16) (iblk1 (V6 m ρ) c 1 t : Vec Ideal S128x2048 .bf16) (iblk1 (V6 m ρ) c 2 t : Vec Ideal S128x2048 .f32) (iblk1 (V6 m ρ) c 3 t : Vec Ideal S2048x4096 .bf16) (iblk1 (V6 m ρ) c 4 t : Vec Ideal S2048x4096 .bf16)
    (iblk1 (V6 m ρ) c 5 t : Vec Ideal S4096 .f32) (iblk1 (V6 m ρ) c 6 t : Vec Ideal S2048 .f32)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) p (⟨128 * t.val + p.val, hr⟩ : Fin 16384)
    (row_ssm m ρ c t p hr) (row_inp m ρ c t p hr) (row_deter m ρ c t p hr) (wg1 m ρ c t) (wc1 m ρ c t) (wg2 m ρ c t) (wc2 m ρ c t)
    (bgRow m ρ c t) (bcRow m ρ c t) (gnRow m ρ c t) q

/-- An index of the result array is in point `t`'s block iff its row is one of the point's 128 rows. -/
theorem mem_blk7 (t : Fin cfg1.N) (i : S16384x2048.Idx) :
    i ∈ ((cfg1.win 7).blk t).view.set ↔ ∀ a : Fin 2, win1_7.index t a * S128x2048.size a ≤ (i a).val ∧ (i a).val < win1_7.index t a * S128x2048.size a + S128x2048.size a := by
  show i ∈ ((View.whole main_v23).slice (win1_7.rect t)).set ↔ _
  rw [View.set_slice_whole, Rect.mem_set_unit]
  exact Iff.rfl

/-- The 128 row blocks tile the result array. -/
theorem cover7 (i : S16384x2048.Idx) : ∃ t : Fin cfg1.N, (cfg1.win 7).flush t = true ∧ i ∈ ((cfg1.win 7).blk t).view.set := by
  have hi0 : (i 0).val < 16384 := (i 0).isLt
  have hi1 : (i 1).val < 2048 := (i 1).isLt
  obtain ⟨t, ht⟩ : ∃ t : Fin cfg1.N, t.val = (i 0).val / 128 := ⟨⟨(i 0).val / 128, lt_of_lt_of_eq (show (i 0).val / 128 < 128 by omega) N_1.symm⟩, rfl⟩
  obtain ⟨e0, e1⟩ := idx1_7 t
  refine ⟨t, flush1_7 t, (mem_blk7 t i).mpr fun a => ?_⟩
  match a with
  | ⟨0, _⟩ => show win1_7.index t (0 : Fin 2) * 128 ≤ (i 0).val ∧ (i 0).val < win1_7.index t (0 : Fin 2) * 128 + 128; rw [e0]; omega
  | ⟨1, _⟩ => show win1_7.index t (1 : Fin 2) * 2048 ≤ (i 1).val ∧ (i 1).val < win1_7.index t (1 : Fin 2) * 2048 + 2048; rw [e1]; omega

/-- After the region the result array holds the reference's result of the launch arguments. -/
theorem final7 (c : Dev nD) : (dat1 (V6 m ρ) c).arrAt 7 cfg1.N = outArr m c :=
  (dat1 (V6 m ρ) c).arrAt_eq_of_cover 7 (outArr m c) (fun t _ => flushed7_eq m ρ c t) (cover7)

/-- The result's buffer at the last boundary of the program. -/
theorem result_eq (c : Dev nD) : W7 m ρ c (Proc.devRef .tc main_v23) = outArr m c :=
  (W7_arr m ρ c 7).trans (final7 m ρ c)

end Cert.KernelIdeal.Region1

end
-- ==== Proof.lean ====
/-
  The certificate's five claims for the single-step state-space update (diagonal decay, low-rank mixing, a gated mix
  and two root-mean-square scalings) computed by two kernels against its whole-array reference.

  The three frames are the generated ones: the two kernel programs' frame certificates, and the reference's run
  with its result dropped. The ideal pass rewrote nothing, so `preserves` is `True`.

  `algebraic`: at the ideal instance (floats are extended reals, a change of float format is the identity) the kernel
  program's result array ends holding the reference's result stage of the launch arguments. The first kernel's two
  output arrays end holding the reference's `ssm` and `inp` stages (each grid point writes back its 256 rows of them);
  the second kernel reads those arrays and its result array ends holding the reference's result (each point writes
  back its 128 rows). Row by row the two programs spell the same operations; they differ in that the reference
  multiplies the joined inputs `[s | a]` (1036 columns) and `[ssm | inp]` (4096 columns) by one matrix where the
  kernels add two products over the two parts, and in that the second kernel multiplies by the fused matrices
  `[Wg | Wc]` and slices the product. A sum over the joined index set is the sum of the sums over its parts: addition
  of extended reals is commutative and associative, so the inputs' finiteness is never used. The logistic function is
  one operation in the kernels and `1 / (1 + e^(−x))` in the reference: the same function of an extended real.
-/
import proofs.«157429_j38328288149699_2_alg».proof.Defs
import proofs.«157429_j38328288149699_2_alg».proof.Proof.Gen.Kernel
import proofs.«157429_j38328288149699_2_alg».proof.Proof.Gen.Kernel.Skeleton
import proofs.«157429_j38328288149699_2_alg».proof.Proof.Gen.Kernel.Launch
import proofs.«157429_j38328288149699_2_alg».proof.Proof.Gen.Kernel.Points
import proofs.«157429_j38328288149699_2_alg».proof.Proof.Gen.Kernel.Frame
import proofs.«157429_j38328288149699_2_alg».proof.Proof.Gen.KernelIdeal
import proofs.«157429_j38328288149699_2_alg».proof.Proof.Gen.KernelIdeal.Skeleton
import proofs.«157429_j38328288149699_2_alg».proof.Proof.Gen.KernelIdeal.Launch
import proofs.«157429_j38328288149699_2_alg».proof.Proof.Gen.KernelIdeal.Points
import proofs.«157429_j38328288149699_2_alg».proof.Proof.Gen.KernelIdeal.Frame
import proofs.«157429_j38328288149699_2_alg».proof.Proof.Gen.ReferenceIdeal
import proofs.«157429_j38328288149699_2_alg».proof.Proof.Gen.ReferenceIdeal.Run
import proofs.«157429_j38328288149699_2_alg».proof.Proof.Gen.ReferenceIdeal.Read
import proofs.«157429_j38328288149699_2_alg».proof.Proof.Gen.Pre_finite_inputs
import proofs.«157429_j38328288149699_2_alg».proof.Proof.KernelRun
import proofs.«157429_j38328288149699_2_alg».proof.Proof.Region1
import Idealize.ShloMosaic.Adequacy
import Idealize.ShloMosaic.Init

noncomputable section

namespace Cert.Proof

open Idealize.ShloMosaic Idealize.ShloMosaic.TcCoe Idealize.SL.Sem

/-- The word-level kernel program's frame. -/
theorem frame_kernel : Cert.frame_Kernel :=
  fun m ρ _ => Cert.Kernel.Gen.frame m ρ

/-- The idealized kernel program's frame. -/
theorem frame_kernelIdeal : Cert.frame_KernelIdeal :=
  fun m ρ _ => Cert.KernelIdeal.Gen.frame m ρ

/-- The reference's frame: its run, the result dropped. -/
theorem frame_reference : Cert.frame_ReferenceIdeal :=
  fun m ρ _ => (θ_run Cert.ReferenceIdeal.defs _ _).mono (fun _ h c => (h c).2) (Cert.ReferenceIdeal.Value.run (F := Ideal) m ρ)

/-- Both idealized programs end with the reference's result stage of the (agreeing) launch arguments. -/
theorem algebraic :
    Cert.algebraic_KernelIdeal_ReferenceIdeal := by
  intro m ρ m' ρ' _ hagree
  refine ⟨fun c => Cert.KernelIdeal.Region1.outArr m c, ?_, ?_⟩
  · exact (θ_run Cert.KernelIdeal.defs _ _).mono
      (fun _ h c => ⟨(h c).1.trans (Cert.KernelIdeal.Region1.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14, a15, a16⟩ := hagree c
    rw [Cert.ReferenceIdeal.Read.val_main_v78_eq, a0, a1, a2, a3, a4, a5, a6, a7, a8, a9, a10, a11, a12, a13, a14, a15, a16]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
